-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3200000 : Shape := ⟨2, ![2, 3200000]⟩
abbrev S100000x256 : Shape := ⟨2, ![100000, 256]⟩
abbrev S256x1 : Shape := ⟨2, ![256, 1]⟩
abbrev S1 : Shape := ⟨1, ![1]⟩
abbrev S256x64 : Shape := ⟨2, ![256, 64]⟩
abbrev S64 : Shape := ⟨1, ![64]⟩
abbrev S64x1 : Shape := ⟨2, ![64, 1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg5 : FVec F S64 .f32) (main_arg6 : FVec F S64x1 .f32) (main_arg7 : FVec F S1 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : IVec S2x3200000 32) (main_arg1 : FVec F S100000x256 .f32) (main_arg2 : FVec F S256x1 .f32) (main_arg3 : FVec F S1 .f32) (main_arg4 : FVec F S256x64 .f32) (main_arg5 : FVec F S64 .f32) (main_arg6 : FVec F S64x1 .f32) (main_arg7 : FVec F S1 .f32) : IVec S_ 1 :=
  let main_v0 : FVec F S100000x256 .f32 := Host.absf main_arg1
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x1 .f32 := Host.absf main_arg2
  let main_cst_0 : FVec F S_ .f32 := constant S_ .f32 0x7F800000#32
  let main_v5 : FVec F S256x1 .f32 := broadcastInDim S256x1 ![] bcast_S_S256x1 main_cst_0
  let main_v6 : IVec S256x1 1 := cmpf .olt main_v4 main_v5
  let main_c_1 : IVec S_ 1 := constantI S_ 1 1#1
  let main_v7 : IVec S_ 1 := (fun x v => Host.reduce IntOp.andi x v reducesTo_S256x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_arg7 main_v13 main_v16
-- ==== Kernel.lean ====
abbrev S2x3200000 : Shape := ⟨2, ![2, 3200000]⟩
abbrev S100000x256 : Shape := ⟨2, ![100000, 256]⟩
abbrev S256x1 : Shape := ⟨2, ![256, 1]⟩
abbrev S1 : Shape := ⟨1, ![1]⟩
abbrev S256x64 : Shape := ⟨2, ![256, 64]⟩
abbrev S64 : Shape := ⟨1, ![64]⟩
abbrev S64x1 : Shape := ⟨2, ![64, 1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S256x65 : Shape := ⟨2, ![256, 65]⟩
abbrev S100000x65 : Shape := ⟨2, ![100000, 65]⟩
abbrev S5000x256 : Shape := ⟨2, ![5000, 256]⟩
abbrev S5000x65 : Shape := ⟨2, ![5000, 65]⟩
abbrev S3300000x65 : Shape := ⟨2, ![3300000, 65]⟩
abbrev S65 : Shape := ⟨1, ![65]⟩
abbrev S1x65 : Shape := ⟨2, ![1, 65]⟩
abbrev S1x1 : Shape := ⟨2, ![1, 1]⟩
abbrev S100000x2 : Shape := ⟨2, ![100000, 2]⟩
abbrev S5000x2 : Shape := ⟨2, ![5000, 2]⟩
abbrev S5000x1 : Shape := ⟨2, ![5000, 1]⟩
abbrev S5000x64 : Shape := ⟨2, ![5000, 64]⟩
abbrev S100000x1 : Shape := ⟨2, ![100000, 1]⟩

abbrev nBuf : Space → Nat
  | .hbm => 75
  | .vmem => 12
  | .smem => 0
  | _ => 0

abbrev bufTy : (tb : Table) → Fin (tcTables nBuf tb) → BufTy
  | .hbm, ⟨0, _⟩ => ⟨S2x3200000, .i32⟩
  | .hbm, ⟨1, _⟩ => ⟨S100000x256, .f32⟩
  | .hbm, ⟨2, _⟩ => ⟨S256x1, .f32⟩
  | .hbm, ⟨3, _⟩ => ⟨S1, .f32⟩
  | .hbm, ⟨4, _⟩ => ⟨S256x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000, .f32⟩
  | .hbm, ⟨50, _⟩ => ⟨S3300000, .f32⟩
  | .hbm, ⟨51, _⟩ => ⟨S256x65, .f32⟩
  | .hbm, ⟨52, _⟩ => ⟨S100000x65, .f32⟩
  | .hbm, ⟨53, _⟩ => ⟨S3300000x1, .f32⟩
  | .hbm, ⟨54, _⟩ => ⟨S_, .i32⟩
  | .hbm, ⟨55, _⟩ => ⟨S3300000, .i32⟩
  | .hbm, ⟨56, _⟩ => ⟨S3300000, .i1⟩
  | .hbm, ⟨57, _⟩ => ⟨S_, .i32⟩
  | .hbm, ⟨58, _⟩ => ⟨S3300000, .i32⟩
  | .hbm, ⟨59, _⟩ => ⟨S3300000, .i32⟩
  | .hbm, ⟨60, _⟩ => ⟨S3300000, .i32⟩
  | .hbm, ⟨61, _⟩ => ⟨S3300000x1, .i32⟩
  | .hbm, ⟨62, _⟩ => ⟨S3300000x65, .f32⟩
  | .hbm, ⟨63, _⟩ => ⟨S3300000x65, .f32⟩
  | .hbm, ⟨64, _⟩ => ⟨S3300000x65, .f32⟩
  | .hbm, ⟨65, _⟩ => ⟨S_, .f32⟩
  | .hbm, ⟨66, _⟩ => ⟨S100000x65, .f32⟩
  | .hbm, ⟨67, _⟩ => ⟨S3300000x1, .i32⟩
  | .hbm, ⟨68, _⟩ => ⟨S100000x65, .f32⟩
  | .hbm, ⟨69, _⟩ => ⟨S65, .f32⟩
  | .hbm, ⟨70, _⟩ => ⟨S1x65, .f32⟩
  | .hbm, ⟨71, _⟩ => ⟨S1x1, .f32⟩
  | .hbm, ⟨72, _⟩ => ⟨S100000x2, .f32⟩
  | .hbm, ⟨73, _⟩ => ⟨S100000x1, .f32⟩
  | .hbm, ⟨74, _⟩ => ⟨S100000x1, .f32⟩
  | .local _ .vmem, ⟨0, _⟩ => ⟨S5000x256, .f32⟩
  | .local _ .vmem, ⟨1, _⟩ => ⟨S5000x256, .f32⟩
  | .local _ .vmem, ⟨2, _⟩ => ⟨S256x65, .f32⟩
  | .local _ .vmem, ⟨3, _⟩ => ⟨S5000x65, .f32⟩
  | .local _ .vmem, ⟨4, _⟩ => ⟨S5000x65, .f32⟩
  | .local _ .vmem, ⟨5, _⟩ => ⟨S5000x65, .f32⟩
  | .local _ .vmem, ⟨6, _⟩ => ⟨S5000x65, .f32⟩
  | .local _ .vmem, ⟨7, _⟩ => ⟨S1x65, .f32⟩
  | .local _ .vmem, ⟨8, _⟩ => ⟨S64x1, .f32⟩
  | .local _ .vmem, ⟨9, _⟩ => ⟨S1x1, .f32⟩
  | .local _ .vmem, ⟨10, _⟩ => ⟨S5000x2, .f32⟩
  | .local _ .vmem, ⟨11, _⟩ => ⟨S5000x2, .f32⟩
  | _, _ => ⟨S2x3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x65 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x65 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x65 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x65 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  concatenates_S256x1_S256x64_S256x65_d1 : Shape.Concatenates [S256x1, S256x64] S256x65 1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x65_S256x65_0_0 : ∀ a, (![0, 0] : Fin 2 → Nat) a + S256x65.size a ≤ S256x65.size a
  h_S256x65 : 0 < S256x65.numel
  shapeCasts_S256x65_S256x65 : S256x65.ShapeCasts S256x65
  inb_S5000x65_S5000x65_0_0 : ∀ a, (![0, 0] : Fin 2 → Nat) a + S5000x65.size a ≤ S5000x65.size a
  h_S5000x65 : 0 < S5000x65.numel
  bcast_S3300000x1_S3300000x65_0_1 : S3300000x1.BroadcastsInDim S3300000x65 (![0, 1] : Fin 2 → Fin S3300000x65.rank)
  bcast_S_S100000x65 : S_.BroadcastsInDim S100000x65 (![] : Fin 0 → Fin S100000x65.rank)
  concatenates_S1_S64_S65_d0 : Shape.Concatenates [S1, S64] S65 0
  shapeCasts_S65_S1x65 : S65.ShapeCasts S1x65
  shapeCasts_S1_S1x1 : S1.ShapeCasts S1x1
  shapeCasts_S5000x65_S5000x65 : S5000x65.ShapeCasts S5000x65
  inb_S1x65_S1x65_0_0 : ∀ a, (![0, 0] : Fin 2 → Nat) a + S1x65.size a ≤ S1x65.size a
  h_S1x65 : 0 < S1x65.numel
  shapeCasts_S1x65_S1x65 : S1x65.ShapeCasts S1x65
  broadcasts_S1x65_S5000x65 : S1x65.Broadcasts S5000x65
  slices_S5000x65_o0_0_S5000x1 : S5000x65.Slices ![0, 0] S5000x1
  slices_S5000x65_o0_1_S5000x64 : S5000x65.Slices ![0, 1] S5000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  concatenates_S5000x1_S5000x1_S5000x2_d1 : Shape.Concatenates [S5000x1, S5000x1] S5000x2 1
  inb_S5000x2_S5000x2_0_0 : ∀ a, (![0, 0] : Fin 2 → Nat) a + S5000x2.size a ≤ S5000x2.size a
  h_S5000x2 : 0 < S5000x2.numel
  slices_S100000x2_S100000x1_0_0 : S100000x2.Slices ![0, 0] S100000x1
  slices_S100000x2_S100000x1_0_1 : S100000x2.Slices ![0, 1] S100000x1
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x256_S256x65_S5000x65_1_0_0_1_n_n_wf : DotDims.WF S5000x256 S256x65 S5000x65 [1] [0] [0] [1] [] []
  gather_S100000x65_S3300000x1_S3300000x65_1_0_n_n_0_1_165_wf : GatherDims.WF S100000x65 S3300000x1 S3300000x65 [1] [0] [] [0] [] 1 ![1, 65]
  scatter_S100000x65_S3300000x1_S3300000x65_1_0_0_1_wf : ScatterDims.WF S100000x65 S3300000x1 S3300000x65 [1] [0] [0] 1
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x65.size a ≤ S256x65.size a
  hwx0_1 : ∀ i : grid0.Coords, EltTy.bits .f32 = 32 ∨ (Rect.block (s := S256x65) S256x65.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x65.size a ≤ S100000x65.size a
  hwx0_2 : ∀ i : grid0.Coords, EltTy.bits .f32 = 32 ∨ (Rect.block (s := S100000x65) S5000x65.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x65.size a ≤ S100000x65.size a
  hwx1_0 : ∀ i : grid1.Coords, EltTy.bits .f32 = 32 ∨ (Rect.block (s := S100000x65) S5000x65.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x65.size a ≤ S1x65.size a
  hwx1_1 : ∀ i : grid1.Coords, EltTy.bits .f32 = 32 ∨ (Rect.block (s := S1x65) S1x65.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x2.size a ≤ S100000x2.size a
  hwx1_4 : ∀ i : grid1.Coords, EltTy.bits .f32 = 32 ∨ (Rect.block (s := S100000x2) S5000x2.size (cc1_transform_4 i) (hinb1_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x256_S256x65_S5000x65_1_0_0_1_n_n : DotDims S5000x256 S256x65 S5000x65 where
  lhsContracting := [1]
  rhsContracting := [0]
  lhsNonContracting := [0]
  rhsNonContracting := [1]
  lhsBatch := []
  rhsBatch := []
  wf := dot_S5000x256_S256x65_S5000x65_1_0_0_1_n_n_wf
def gather_S100000x65_S3300000x1_S3300000x65_1_0_n_n_0_1_165 : GatherDims S100000x65 S3300000x1 S3300000x65 where
  offsetDims := [1]
  collapsedSliceDims := [0]
  operandBatchingDims := []
  startIndicesBatchingDims := []
  startIndexMap := [0]
  indexVectorDim := 1
  sliceSizes := ![1, 65]
  wf := gather_S100000x65_S3300000x1_S3300000x65_1_0_n_n_0_1_165_wf
def scatter_S100000x65_S3300000x1_S3300000x65_1_0_0_1 : ScatterDims S100000x65 S3300000x1 S3300000x65 where
  updateWindowDims := [1]
  insertedWindowDims := [0]
  scatterDimsToOperandDims := [0]
  indexVectorDim := 1
  wf := scatter_S100000x65_S3300000x1_S3300000x65_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg1) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S256x65.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x65.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x65.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x65.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S5000x2.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x3200000 : Shape := ⟨2, ![2, 3200000]⟩
abbrev S100000x256 : Shape := ⟨2, ![100000, 256]⟩
abbrev S256x1 : Shape := ⟨2, ![256, 1]⟩
abbrev S1 : Shape := ⟨1, ![1]⟩
abbrev S256x64 : Shape := ⟨2, ![256, 64]⟩
abbrev S64 : Shape := ⟨1, ![64]⟩
abbrev S64x1 : Shape := ⟨2, ![64, 1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S1x1 : Shape := ⟨2, ![1, 1]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 94
  | .vmem => 0
  | .smem => 0
  | _ => 0

abbrev bufTy : (tb : Table) → Fin (tcTables nBuf tb) → BufTy
  | .hbm, ⟨0, _⟩ => ⟨S2x3200000, .i32⟩
  | .hbm, ⟨1, _⟩ => ⟨S100000x256, .f32⟩
  | .hbm, ⟨2, _⟩ => ⟨S256x1, .f32⟩
  | .hbm, ⟨3, _⟩ => ⟨S1, .f32⟩
  | .hbm, ⟨4, _⟩ => ⟨S256x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000, .f32⟩
  | .hbm, ⟨50, _⟩ => ⟨S3300000, .f32⟩
  | .hbm, ⟨51, _⟩ => ⟨S100000x1, .f32⟩
  | .hbm, ⟨52, _⟩ => ⟨S3300000x1, .f32⟩
  | .hbm, ⟨53, _⟩ => ⟨S_, .i32⟩
  | .hbm, ⟨54, _⟩ => ⟨S3300000, .i32⟩
  | .hbm, ⟨55, _⟩ => ⟨S3300000, .i1⟩
  | .hbm, ⟨56, _⟩ => ⟨S_, .i32⟩
  | .hbm, ⟨57, _⟩ => ⟨S3300000, .i32⟩
  | .hbm, ⟨58, _⟩ => ⟨S3300000, .i32⟩
  | .hbm, ⟨59, _⟩ => ⟨S3300000, .i32⟩
  | .hbm, ⟨60, _⟩ => ⟨S3300000x1, .i32⟩
  | .hbm, ⟨61, _⟩ => ⟨S3300000x1, .f32⟩
  | .hbm, ⟨62, _⟩ => ⟨S3300000x1, .f32⟩
  | .hbm, ⟨63, _⟩ => ⟨S_, .f32⟩
  | .hbm, ⟨64, _⟩ => ⟨S100000x1, .f32⟩
  | .hbm, ⟨65, _⟩ => ⟨S3300000x1, .i32⟩
  | .hbm, ⟨66, _⟩ => ⟨S100000x1, .f32⟩
  | .hbm, ⟨67, _⟩ => ⟨S1x1, .f32⟩
  | .hbm, ⟨68, _⟩ => ⟨S100000x1, .f32⟩
  | .hbm, ⟨69, _⟩ => ⟨S100000x1, .f32⟩
  | .hbm, ⟨70, _⟩ => ⟨S100000x64, .f32⟩
  | .hbm, ⟨71, _⟩ => ⟨S3300000x1, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x64, .f32⟩
  | .hbm, ⟨81, _⟩ => ⟨S3300000x64, .f32⟩
  | .hbm, ⟨82, _⟩ => ⟨S3300000x64, .f32⟩
  | .hbm, ⟨83, _⟩ => ⟨S_, .f32⟩
  | .hbm, ⟨84, _⟩ => ⟨S100000x64, .f32⟩
  | .hbm, ⟨85, _⟩ => ⟨S3300000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S100000x1, .f32⟩
  | .hbm, ⟨91, _⟩ => ⟨S1x1, .f32⟩
  | .hbm, ⟨92, _⟩ => ⟨S100000x1, .f32⟩
  | .hbm, ⟨93, _⟩ => ⟨S100000x1, .f32⟩
  | _, _ => ⟨S2x3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x1_S100000x1_1_0_0_1_n_n_wf : DotDims.WF S100000x256 S256x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  dot_S100000x256_S256x64_S100000x64_1_0_0_1_n_n_wf : DotDims.WF S100000x256 S256x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x1_S100000x1_1_0_0_1_n_n_wf : DotDims.WF S100000x64 S64x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.LibConcatCols.lean ====
/-
  Two matrices with the same number of rows laid side by side along the columns, read at an index.

  The concatenation of an R x A array and an R x B array along axis 1 is an R x C array with C = A + B. Entry (r, k)
  is the first array's entry (r, k) when k < A and the second's entry (r, k - A) otherwise. This is what
  jnp.concatenate([x, y], axis=-1) holds, for any element type, on a block of rows as on the whole arrays; two such
  rows agree entry by entry when their halves do.
-/
import Idealize.ShloMosaic.Lib.Pipeline.Value
import Idealize.ShloMosaic.Lib.ValueIdx

namespace Idealize.ShloMosaic.ConcatCols

open Idealize.ShloMosaic Idealize.ShloMosaic.ValueIdx

variable {α : Type} {R R' A B C : Nat}

/-- Entry k of row r of an R x A array and an R x B array laid side by side. -/
def catRow (hC : C = A + B) (x : (⟨2, ![R, A]⟩ : Shape).Idx → α) (y : (⟨2, ![R, B]⟩ : Shape).Idx → α)
    (r : Fin R) (k : Fin C) : α :=
  if h : k.val < A then x (ix2 r ⟨k.val, h⟩) else y (ix2 r ⟨k.val - A, by have := k.isLt; omega⟩)

/-- The concatenation along axis 1, read at (r, k). -/
theorem concat_cols_apply (hC : C = A + B) (x : (⟨2, ![R, A]⟩ : Shape).Idx → α) (y : (⟨2, ![R, B]⟩ : Shape).Idx → α)
    (h : Shape.Concatenates [(⟨2, ![R, A]⟩ : Shape), (⟨2, ![R, B]⟩ : Shape)] (⟨2, ![R, C]⟩ : Shape) 1)
    (r : Fin R) (k : Fin C) :
    concatenate (⟨2, ![R, C]⟩ : Shape) 1 [⟨(⟨2, ![R, A]⟩ : Shape), x⟩, ⟨(⟨2, ![R, B]⟩ : Shape), y⟩] h (ix2 r k)
      = catRow hC x y r k := by
  unfold catRow
  split
  · rename_i hk
    exact concatenate_pair_apply_left (1 : Fin 2) x y h (ix2 r k) rfl (ix2 r ⟨k.val, hk⟩)
      (fun b => match b with | ⟨0, _⟩ => rfl | ⟨1, _⟩ => rfl)
  · rename_i hk
    exact concatenate_pair_apply_right (1 : Fin 2) x y h (ix2 r k) rfl rfl (ix2 r ⟨k.val - A, by have := k.isLt; omega⟩)
      (fun b hb => match b, hb with
        | ⟨0, _⟩, _ => rfl
        | ⟨1, _⟩, hb => absurd rfl hb)
      (by show (k.val - A) + A = k.val; omega)

/-- Two side-by-side rows agree at every entry when their left halves agree and their right halves agree. -/
theorem catRow_congr (hC : C = A + B)
    {x : (⟨2, ![R, A]⟩ : Shape).Idx → α} {y : (⟨2, ![R, B]⟩ : Shape).Idx → α}
    {x' : (⟨2, ![R', A]⟩ : Shape).Idx → α} {y' : (⟨2, ![R', B]⟩ : Shape).Idx → α} {r : Fin R} {r' : Fin R'}
    (hx : ∀ k : Fin A, x (ix2 r k) = x' (ix2 r' k)) (hy : ∀ k : Fin B, y (ix2 r k) = y' (ix2 r' k)) (k : Fin C) :
    catRow hC x y r k = catRow hC x' y' r' k := by
  unfold catRow
  split
  · exact hx _
  · exact hy _

end Idealize.ShloMosaic.ConcatCols
-- ==== Proof.KBody.lean ====
/-
  What the two kernel bodies leave in their output blocks, entry by entry, on the extended reals.

  The projection body stores the product of its row block with the whole weight: entry (p, q) is the sum over k of
  x(p, k) * w(k, q) (a change of float format is the identity, and the accumulator starts at zero). The finalize
  body adds the bias row to its block, keeps column 0 as it is, contracts columns 1..64 with the classifier weight and
  adds the classifier bias, and lays the two columns side by side.
-/
import proofs.«123521_j51917564674443_1_alg».proof.Proof.Gen.KernelIdeal.Frame
import proofs.«123521_j51917564674443_1_alg».proof.Proof.LibMatmulRows
import proofs.«123521_j51917564674443_1_alg».proof.Proof.LibConcatCols
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

theorem hz2 : (![0, 0] : Fin 2 → Nat) = fun _ => 0 := funext fun a => by fin_cases a <;> rfl

/-! ## The two products' free axes -/

theorem dotP_l0 (i : S5000x65.Idx) (q : dot_S5000x256_S256x65_S5000x65_1_0_0_1_n_n.contr.Idx) :
    (dot_S5000x256_S256x65_S5000x65_1_0_0_1_n_n.lhsIdx i q 0).val = (i 0).val := by
  unfold DotDims.lhsIdx
  rw [dif_neg (show ¬(0 : Fin S5000x256.rank) ∈ dot_S5000x256_S256x65_S5000x65_1_0_0_1_n_n.lhsBatch by decide),
    dif_pos (show (0 : Fin S5000x256.rank) ∈ dot_S5000x256_S256x65_S5000x65_1_0_0_1_n_n.lhsNonContracting by decide)]
  rfl

theorem dotP_r1 (i : S5000x65.Idx) (q : dot_S5000x256_S256x65_S5000x65_1_0_0_1_n_n.contr.Idx) :
    (dot_S5000x256_S256x65_S5000x65_1_0_0_1_n_n.rhsIdx i q 1).val = (i 1).val := by
  unfold DotDims.rhsIdx
  rw [dif_neg (show ¬(1 : Fin S256x65.rank) ∈ dot_S5000x256_S256x65_S5000x65_1_0_0_1_n_n.rhsBatch by decide),
    dif_pos (show (1 : Fin S256x65.rank) ∈ dot_S5000x256_S256x65_S5000x65_1_0_0_1_n_n.rhsNonContracting by decide)]
  rfl

theorem dotC_l0 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide),
    dif_pos (show (0 : Fin S5000x64.rank) ∈ dot_S5000x64_S64x1_S5000x1_1_0_0_1_n_n.lhsNonContracting by decide)]
  rfl

theorem dotC_r1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide),
    dif_pos (show (1 : Fin S64x1.rank) ∈ dot_S5000x64_S64x1_S5000x1_1_0_0_1_n_n.rhsNonContracting by decide)]
  rfl

/-! ## The projection body -/

/-- Entry (p, q) of the projection block: the row p of the input block against column q of the weight. -/
theorem proj_block_apply (x0 : Vec Ideal S5000x256 .f32) (x1 : Vec Ideal S256x65 .f32) (p : Fin 5000) (q : Fin 65) :
    out0_2 x0 x1 (ix2 p q) = ∑ k : Fin 256, x0 (ix2 p k) * x1 (ix2 k q) := by
  unfold out0_2
  rw [View.canon_unit_zero hz2]
  simp only [View.ld_unit_zero (S := S5000x256) hz2, View.ld_unit_zero (S := S256x65) hz2]
  unfold k0_pay1
  refine MatmulRows.matmul_zero_rows dot_S5000x256_S256x65_S5000x65_1_0_0_1_n_n none rfl rfl rfl rfl dotP_l0 dotP_r1
    _ _ (ix2 p q) _ _ (fun k => rfl) (fun k => ?_)
  show shapeCast S256x65 x1 shapeCasts_S256x65_S256x65 (ix2 k q) = x1 (ix2 k q)
  rw [shapeCast_self]

/-! ## The finalize body -/

/-- The block plus the bias row, entry by entry. -/
theorem biased_apply (x0 : Vec Ideal S5000x65 .f32) (x1 : Vec Ideal S1x65 .f32) (p : Fin 5000) (c : Fin 65) :
    (addf (shapeCast S5000x65 x0 shapeCasts_S5000x65_S5000x65 : FVec Ideal S5000x65 .f32)
        (broadcastTo S5000x65 (shapeCast S1x65 x1 shapeCasts_S1x65_S1x65 : FVec Ideal S1x65 .f32) broadcasts_S1x65_S5000x65)
        : FVec Ideal S5000x65 .f32) (ix2 p c)
      = x0 (ix2 p c) + x1 (ix2 (0 : Fin 1) c) := by
  show (shapeCast S5000x65 x0 shapeCasts_S5000x65_S5000x65 : FVec Ideal S5000x65 .f32) (ix2 p c)
      + (broadcastTo S5000x65 (shapeCast S1x65 x1 shapeCasts_S1x65_S1x65 : FVec Ideal S1x65 .f32) broadcasts_S1x65_S5000x65
          : FVec Ideal S5000x65 .f32) (ix2 p c) = _
  rw [shapeCast_self, shapeCast_self]
  exact congrArg (x0 (ix2 p c) + ·) (broadcastTo_1b_ab_apply x1 broadcasts_S1x65_S5000x65 p c)

/-- Column 0 of the finalize block: the block's column 0 plus the bias row's entry 0. -/
theorem fin_block_col0 (x0 : Vec Ideal S5000x65 .f32) (x1 : Vec Ideal S1x65 .f32) (x2 : Vec Ideal S64x1 .f32)
    (x3 : Vec Ideal S1x1 .f32) (p : Fin 5000) :
    out1_4 x0 x1 x2 x3 (ix2 p (0 : Fin 2)) = x0 (ix2 p (0 : Fin 65)) + x1 (ix2 (0 : Fin 1) (0 : Fin 65)) := by
  unfold out1_4
  rw [View.canon_unit_zero hz2]
  simp only [View.ld_unit_zero (S := S5000x65) hz2, View.ld_unit_zero (S := S1x65) hz2,
    View.ld_unit_zero (S := S64x1) hz2, View.ld_unit_zero (S := S1x1) hz2]
  unfold k1_pay1
  refine (ConcatCols.concat_cols_apply (R := 5000) (A := 1) (B := 1) (C := 2) rfl _ _ _ p (0 : Fin 2)).trans ?_
  unfold ConcatCols.catRow
  rw [dif_pos (show ((0 : Fin 2)).val < 1 by decide)]
  refine (slice2_axis1_apply (n0 := 5000) (n1 := 65) (m := 1) 0 _ slices_S5000x65_o0_0_S5000x1 p _ (0 : Fin 65) rfl).trans ?_
  exact biased_apply x0 x1 p 0

/-- Column 1 of the finalize block: columns 1..64 of the biased block against the classifier weight, plus its bias. -/
theorem fin_block_col1 (x0 : Vec Ideal S5000x65 .f32) (x1 : Vec Ideal S1x65 .f32) (x2 : Vec Ideal S64x1 .f32)
    (x3 : Vec Ideal S1x1 .f32) (p : Fin 5000) :
    out1_4 x0 x1 x2 x3 (ix2 p (1 : Fin 2))
      = (∑ h : Fin 64, (x0 (ix2 p (⟨1 + h.val, by omega⟩ : Fin 65)) + x1 (ix2 (0 : Fin 1) (⟨1 + h.val, by omega⟩ : Fin 65)))
          * x2 (ix2 h (0 : Fin 1)))
        + x3 (ix2 (0 : Fin 1) (0 : Fin 1)) := by
  unfold out1_4
  rw [View.canon_unit_zero hz2]
  simp only [View.ld_unit_zero (S := S5000x65) hz2, View.ld_unit_zero (S := S1x65) hz2,
    View.ld_unit_zero (S := S64x1) hz2, View.ld_unit_zero (S := S1x1) hz2]
  unfold k1_pay1
  refine (ConcatCols.concat_cols_apply (R := 5000) (A := 1) (B := 1) (C := 2) rfl _ _ _ p (1 : Fin 2)).trans ?_
  unfold ConcatCols.catRow
  rw [dif_neg (show ¬ ((1 : Fin 2)).val < 1 by decide)]
  refine (addf_apply _ _ _).trans ?_
  refine congrArg₂ (· + ·) ?_ ?_
  swap
  · refine (broadcastTo_1b_ab_apply _ broadcasts_S1x1_S5000x1 p _).trans ?_
    rw [shapeCast_self]
    rfl
  refine MatmulRows.matmul_zero_rows dot_S5000x64_S64x1_S5000x1_1_0_0_1_n_n none rfl rfl rfl rfl dotC_l0 dotC_r1
    _ _ (ix2 p _) _ _ (fun h => ?_) (fun h => rfl)
  refine (truncf_apply (ψ := .bf16) (φ := .f32) _ bitsLt_bf16_f32 _).trans ?_
  refine (slice2_axis1_apply (n0 := 5000) (n1 := 65) (m := 64) 1 _ slices_S5000x65_o0_1_S5000x64 p h
    (⟨1 + h.val, by omega⟩ : Fin 65) rfl).trans ?_
  exact biased_apply x0 x1 p _

end Cert.KernelIdeal.Hand

end
-- ==== Proof.KFinal.lean ====
/-
  From blocks to whole arrays, for both kernel launches, at any contents `V` the launch is entered from.

  The projection launch writes, at grid point t, rows 5000 t .. 5000 t + 4999 of the product of the node features with
  the whole weight; the twenty blocks tile the [100000, 65] result, so the result array is that product, row by row.
  The finalize launch writes, at grid point t, the same rows of the [100000, 2] result: column 0 the aggregated
  column 0 plus its bias, column 1 the biased columns 1..64 against the classifier weight plus the classifier bias.
-/
import proofs.«123521_j51917564674443_1_alg».proof.Proof.KBody

noncomputable section

namespace Cert.KernelIdeal.Hand

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The projection launch -/

/-- The product of every row of `x` with the weight `w`. -/
def projArr (x : S100000x256.Idx → Elt Ideal .f32) (w : S256x65.Idx → Elt Ideal .f32) : S100000x65.Idx → Elt Ideal .f32 :=
  fun i => ∑ k : Fin 256, x (ix2 (⟨(i 0).val, idx2_lt0 i⟩ : Fin 100000) k) * w (ix2 k (⟨(i 1).val, idx2_lt1 i⟩ : Fin 65))

/-- One block entry is the product's entry, once the block's row is known to be a row of `A` and the weight block the weight. -/
theorem proj_point (A : S100000x256.Idx → Elt Ideal .f32) (W : S256x65.Idx → Elt Ideal .f32)
    (x0 : Vec Ideal S5000x256 .f32) (x1 : Vec Ideal S256x65 .f32) (y : S5000x65.Idx) (i : S100000x65.Idx)
    (h0 : ∀ k : Fin 256, x0 (ix2 (⟨(y 0).val, idx2_lt0 y⟩ : Fin 5000) k) = A (ix2 (⟨(i 0).val, idx2_lt0 i⟩ : Fin 100000) k))
    (h1 : ∀ k : Fin 256, x1 (ix2 k (⟨(y 1).val, idx2_lt1 y⟩ : Fin 65)) = W (ix2 k (⟨(i 1).val, idx2_lt1 i⟩ : Fin 65))) :
    out0_2 x0 x1 y = projArr A W i := by
  have hy : y = ix2 (⟨(y 0).val, idx2_lt0 y⟩ : Fin 5000) (⟨(y 1).val, idx2_lt1 y⟩ : Fin 65) := by
    funext a
    match a with
    | ⟨0, _⟩ => rfl
    | ⟨1, _⟩ => rfl
  refine (congrArg (out0_2 x0 x1) hy).trans ?_
  rw [proj_block_apply]
  exact Finset.sum_congr rfl fun k _ => by rw [h0 k, h1 k]

/-- The printed index maps over the grid: the row blocks move with the point, everything else sits at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product. -/
theorem proj_flushed (c : Dev nD) (t : Fin cfg0.N) :
    (dat0 V c).flushed 2 t = ((cfg0.win 2).blk t).view.read (Elt Ideal) (projArr (V c main_arg1) (V c main_v32)) := by
  show (cfg0.win 2).cut (grid0.coords t) ((dat0 V c).after 2 t) = _
  rw [after0_2]
  obtain ⟨e00, e01, e10, e11, e20, e21⟩ := idx_facts0 t
  funext j
  show out0_2 (iblk0 V c 0 t) (iblk0 V c 1 t) j
    = projArr (V c main_arg1) (V c main_v32) (((cfg0.win 2).blk t).view.emb j)
  refine proj_point (V c main_arg1) (V c main_v32) (iblk0 V c 0 t) (iblk0 V c 1 t) j _ (fun k => ?_) (fun k => ?_)
  · show V c main_arg1 (((cfg0.win 0).blk t).view.emb (ix2 (⟨(j 0).val, idx2_lt0 j⟩ : Fin 5000) k)) = V c main_arg1 _
    refine congrArg (V c main_arg1) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 256 + 1 * k.val = k.val
      omega
  · show V c main_v32 (((cfg0.win 1).blk t).view.emb (ix2 k (⟨(j 1).val, idx2_lt1 j⟩ : Fin 65))) = V c main_v32 _
    refine congrArg (V c main_v32) (funext fun a => Fin.ext ?_)
    match a with
    | ⟨0, _⟩ =>
      show win0_1.index t (0 : Fin 2) * 256 + 1 * k.val = k.val
      omega
    | ⟨1, _⟩ =>
      show win0_1.index t (1 : Fin 2) * 65 + 1 * (j 1).val = win0_2.index t (1 : Fin 2) * 65 + 1 * (j 1).val
      omega

/-- An index is in point t's result block iff each coordinate is in the block's range. -/
theorem mem_blk0 (t : Fin cfg0.N) (i : S100000x65.Idx) :
    i ∈ ((cfg0.win 2).blk t).view.set ↔ ∀ a : Fin 2, win0_2.index t a * S5000x65.size a ≤ (i a).val
      ∧ (i a).val < win0_2.index t a * S5000x65.size a + S5000x65.size a := by
  show i ∈ ((View.whole main_v33).slice (win0_2.rect t)).set ↔ _
  rw [View.set_slice_whole, Rect.mem_set_unit]
  exact Iff.rfl

/-- Row r is in the block of point r / 5000. -/
theorem proj_cover (i : S100000x65.Idx) :
    ∃ t : Fin cfg0.N, (cfg0.win 2).flush t = true ∧ i ∈ ((cfg0.win 2).blk t).view.set := by
  have hN : cfg0.N = 20 := N_0
  have hi0 : (i 0).val < 100000 := idx2_lt0 i
  have hi1 : (i 1).val < 65 := idx2_lt1 i
  have ht : (i 0).val / 5000 < cfg0.N := by rw [hN]; omega
  refine ⟨⟨(i 0).val / 5000, ht⟩, flush0_2 _, ?_⟩
  rw [mem_blk0]
  obtain ⟨-, -, -, -, e20, e21⟩ := idx_facts0 ⟨(i 0).val / 5000, ht⟩
  have e20' : win0_2.index ⟨(i 0).val / 5000, ht⟩ (0 : Fin 2) = (i 0).val / 5000 := e20
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    omega
  | ⟨1, _⟩ =>
    show win0_2.index ⟨(i 0).val / 5000, ht⟩ (1 : Fin 2) * 65 ≤ (i 1).val
      ∧ (i 1).val < win0_2.index ⟨(i 0).val / 5000, ht⟩ (1 : Fin 2) * 65 + 65
    omega

/-- The projection's result array after the launch is the product, whatever the launch was entered from. -/
theorem proj_final (c : Dev nD) : (dat0 V c).arrAt 2 cfg0.N = projArr (V c main_arg1) (V c main_v32) :=
  (dat0 V c).arrAt_eq_of_cover 2 (projArr (V c main_arg1) (V c main_v32)) (fun t _ => proj_flushed V c t) proj_cover

/-! ## The finalize launch -/

/-- The two result columns from the aggregated array `A`, the bias row `B`, the classifier weight and bias. -/
def finArr (A : S100000x65.Idx → Elt Ideal .f32) (B : S1x65.Idx → Elt Ideal .f32) (Wc : S64x1.Idx → Elt Ideal .f32)
    (Bc : S1x1.Idx → Elt Ideal .f32) : S100000x2.Idx → Elt Ideal .f32 :=
  fun i =>
    if (i 1).val = 0 then
      A (ix2 (⟨(i 0).val, idx2_lt0 i⟩ : Fin 100000) (0 : Fin 65)) + B (ix2 (0 : Fin 1) (0 : Fin 65))
    else
      (∑ h : Fin 64, (A (ix2 (⟨(i 0).val, idx2_lt0 i⟩ : Fin 100000) (⟨1 + h.val, by omega⟩ : Fin 65))
          + B (ix2 (0 : Fin 1) (⟨1 + h.val, by omega⟩ : Fin 65))) * Wc (ix2 h (0 : Fin 1)))
        + Bc (ix2 (0 : Fin 1) (0 : Fin 1))

/-- One block entry is the result's entry, once the block's row is a row of `A` and the small blocks are the small arrays. -/
theorem fin_point (A : S100000x65.Idx → Elt Ideal .f32) (B : S1x65.Idx → Elt Ideal .f32)
    (Wc : S64x1.Idx → Elt Ideal .f32) (Bc : S1x1.Idx → Elt Ideal .f32)
    (x0 : Vec Ideal S5000x65 .f32) (x1 : Vec Ideal S1x65 .f32) (x2 : Vec Ideal S64x1 .f32) (x3 : Vec Ideal S1x1 .f32)
    (y : S5000x2.Idx) (i : S100000x2.Idx) (hcol : (y 1).val = (i 1).val)
    (h0 : ∀ q : Fin 65, x0 (ix2 (⟨(y 0).val, idx2_lt0 y⟩ : Fin 5000) q) = A (ix2 (⟨(i 0).val, idx2_lt0 i⟩ : Fin 100000) q))
    (h1 : ∀ q : Fin 65, x1 (ix2 (0 : Fin 1) q) = B (ix2 (0 : Fin 1) q))
    (h2 : ∀ h : Fin 64, x2 (ix2 h (0 : Fin 1)) = Wc (ix2 h (0 : Fin 1)))
    (h3 : x3 (ix2 (0 : Fin 1) (0 : Fin 1)) = Bc (ix2 (0 : Fin 1) (0 : Fin 1))) :
    out1_4 x0 x1 x2 x3 y = finArr A B Wc Bc i := by
  have hy1 : (y 1).val < 2 := idx2_lt1 y
  by_cases hc : (i 1).val = 0
  · have hy : y = ix2 (⟨(y 0).val, idx2_lt0 y⟩ : Fin 5000) (0 : Fin 2) := by
      funext a
      match a with
      | ⟨0, _⟩ => rfl
      | ⟨1, _⟩ => exact Fin.ext (by show (y 1).val = 0; omega)
    refine (congrArg (out1_4 x0 x1 x2 x3) hy).trans ?_
    rw [fin_block_col0]
    unfold finArr
    rw [if_pos hc, h0, h1]
  · have hy : y = ix2 (⟨(y 0).val, idx2_lt0 y⟩ : Fin 5000) (1 : Fin 2) := by
      funext a
      match a with
      | ⟨0, _⟩ => rfl
      | ⟨1, _⟩ => exact Fin.ext (by show (y 1).val = 1; omega)
    refine (congrArg (out1_4 x0 x1 x2 x3) hy).trans ?_
    rw [fin_block_col1]
    unfold finArr
    rw [if_neg hc, h3]
    refine congrArg (· + Bc (ix2 (0 : Fin 1) (0 : Fin 1))) ?_
    exact Finset.sum_congr rfl fun h _ => by rw [h0, h1, h2]

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the two result columns. -/
theorem fin_flushed (c : Dev nD) (t : Fin cfg1.N) :
    (dat1 V c).flushed 4 t = ((cfg1.win 4).blk t).view.read (Elt Ideal)
      (finArr (V c main_v46) (V c main_v48) (V c main_arg6) (V c main_v49)) := by
  show (cfg1.win 4).cut (grid1.coords t) ((dat1 V c).after 4 t) = _
  rw [after1_4]
  obtain ⟨e00, e01, e10, e11, e20, e21, e30, e31, e40, e41⟩ := idx_facts1 t
  funext j
  show out1_4 (iblk1 V c 0 t) (iblk1 V c 1 t) (iblk1 V c 2 t) (iblk1 V c 3 t) j
    = finArr (V c main_v46) (V c main_v48) (V c main_arg6) (V c main_v49) (((cfg1.win 4).blk t).view.emb j)
  refine fin_point (V c main_v46) (V c main_v48) (V c main_arg6) (V c main_v49)
    (iblk1 V c 0 t) (iblk1 V c 1 t) (iblk1 V c 2 t) (iblk1 V c 3 t) j _ ?_ (fun q => ?_) (fun q => ?_) (fun h => ?_) ?_
  · show (j 1).val = win1_4.index t (1 : Fin 2) * 2 + 1 * (j 1).val
    omega
  · show V c main_v46 (((cfg1.win 0).blk t).view.emb (ix2 (⟨(j 0).val, idx2_lt0 j⟩ : Fin 5000) q)) = V c main_v46 _
    refine congrArg (V c main_v46) (funext fun a => Fin.ext ?_)
    match a with
    | ⟨0, _⟩ =>
      show win1_0.index t (0 : Fin 2) * 5000 + 1 * (j 0).val = win1_4.index t (0 : Fin 2) * 5000 + 1 * (j 0).val
      omega
    | ⟨1, _⟩ =>
      show win1_0.index t (1 : Fin 2) * 65 + 1 * q.val = q.val
      omega
  · show V c main_v48 (((cfg1.win 1).blk t).view.emb (ix2 (0 : Fin 1) q)) = V c main_v48 _
    refine congrArg (V c main_v48) (funext fun a => Fin.ext ?_)
    match a with
    | ⟨0, _⟩ =>
      show win1_1.index t (0 : Fin 2) * 1 + 1 * 0 = 0
      omega
    | ⟨1, _⟩ =>
      show win1_1.index t (1 : Fin 2) * 65 + 1 * q.val = q.val
      omega
  · show V c main_arg6 (((cfg1.win 2).blk t).view.emb (ix2 h (0 : Fin 1))) = V c main_arg6 _
    refine congrArg (V c main_arg6) (funext fun a => Fin.ext ?_)
    match a with
    | ⟨0, _⟩ =>
      show win1_2.index t (0 : Fin 2) * 64 + 1 * h.val = h.val
      omega
    | ⟨1, _⟩ =>
      show win1_2.index t (1 : Fin 2) * 1 + 1 * 0 = 0
      omega
  · show V c main_v49 (((cfg1.win 3).blk t).view.emb (ix2 (0 : Fin 1) (0 : Fin 1))) = V c main_v49 _
    refine congrArg (V c main_v49) (funext fun a => Fin.ext ?_)
    match a with
    | ⟨0, _⟩ =>
      show win1_3.index t (0 : Fin 2) * 1 + 1 * 0 = 0
      omega
    | ⟨1, _⟩ =>
      show win1_3.index t (1 : Fin 2) * 1 + 1 * 0 = 0
      omega

theorem mem_blk1 (t : Fin cfg1.N) (i : S100000x2.Idx) :
    i ∈ ((cfg1.win 4).blk t).view.set ↔ ∀ a : Fin 2, win1_4.index t a * S5000x2.size a ≤ (i a).val
      ∧ (i a).val < win1_4.index t a * S5000x2.size a + S5000x2.size a := by
  show i ∈ ((View.whole main_v50).slice (win1_4.rect t)).set ↔ _
  rw [View.set_slice_whole, Rect.mem_set_unit]
  exact Iff.rfl

theorem fin_cover (i : S100000x2.Idx) :
    ∃ t : Fin cfg1.N, (cfg1.win 4).flush t = true ∧ i ∈ ((cfg1.win 4).blk t).view.set := by
  have hN : cfg1.N = 20 := N_1
  have hi0 : (i 0).val < 100000 := idx2_lt0 i
  have hi1 : (i 1).val < 2 := idx2_lt1 i
  have ht : (i 0).val / 5000 < cfg1.N := by rw [hN]; omega
  refine ⟨⟨(i 0).val / 5000, ht⟩, flush1_4 _, ?_⟩
  rw [mem_blk1]
  obtain ⟨-, -, -, -, -, -, -, -, e40, e41⟩ := idx_facts1 ⟨(i 0).val / 5000, ht⟩
  have e40' : win1_4.index ⟨(i 0).val / 5000, ht⟩ (0 : Fin 2) = (i 0).val / 5000 := e40
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    omega
  | ⟨1, _⟩ =>
    show win1_4.index ⟨(i 0).val / 5000, ht⟩ (1 : Fin 2) * 2 ≤ (i 1).val
      ∧ (i 1).val < win1_4.index ⟨(i 0).val / 5000, ht⟩ (1 : Fin 2) * 2 + 2
    omega

/-- The finalize launch's result array, whatever the launch was entered from. -/
theorem fin_final (c : Dev nD) :
    (dat1 V c).arrAt 4 cfg1.N = finArr (V c main_v46) (V c main_v48) (V c main_arg6) (V c main_v49) :=
  (dat1 V c).arrAt_eq_of_cover 4 (finArr (V c main_v46) (V c main_v48) (V c main_arg6) (V c main_v49))
    (fun t _ => fin_flushed V c t) fin_cover

end Cert.KernelIdeal.Hand

end
-- ==== Proof.KHost.lean ====
/-
  The kernel program's host operations, read through: what each buffer the two launches and the results depend on
  holds, as a term of the argument arrays.

  The edge list is the input's two rows with a self loop appended per node; an index column is wrapped (a negative
  index has the node count added) before a gather. The coefficient of an edge is the product of the inverse square
  roots of the degrees of its two ends (zero for degree zero), the degree counted by scattering ones to the targets.
  The first launch multiplies the features with the two weights laid side by side; between the launches the products'
  rows are gathered at the sources, scaled by the coefficients and added at the targets; the second launch adds the
  biases laid side by side, and applies the classifier to columns 1..64. The two results are its two columns.
-/
import proofs.«123521_j51917564674443_1_alg».proof.Proof.KFinal
import Idealize.ShloMosaic.Lib.StableHlo.Run

noncomputable section

namespace Cert.KernelIdeal.Hand

open Cert.KernelIdeal Cert.KernelIdeal.Gen Idealize.ShloMosaic Idealize.ShloMosaic.TcCoe Idealize.ShloMosaic.StableHlo
open Idealize.SL.Sem

/-! ## The terms -/

section Terms
variable {F : FTy → Type} [FloatOps F]

/-- Row `r` of the edge list with the self loops appended. -/
def edgeEnds (r : Nat) (h : S2x3200000.Slices ![r, 0] S1x3200000) (a0 : IVec S2x3200000 32) : IVec S3300000 32 :=
  concatenate S3300000 0
    [⟨S3200000, shapeCast S3200000 (extractStridedSlice S1x3200000 ![r, 0] a0 h) shapeCasts_S1x3200000_S3200000⟩,
     ⟨S100000, iotaInDim S100000 32 0⟩] concatenates_S3200000_S100000_S3300000_d0

/-- The sources of the edges. -/
def srcIdx (a0 : IVec S2x3200000 32) : IVec S3300000 32 := edgeEnds 0 slices_S2x3200000_S1x3200000_0_0 a0
/-- The targets of the edges. -/
def tgtIdx (a0 : IVec S2x3200000 32) : IVec S3300000 32 := edgeEnds 1 slices_S2x3200000_S1x3200000_1_0 a0

/-- An index vector as an index column. -/
def asColumn (v : IVec S3300000 32) : IVec S3300000x1 32 :=
  broadcastInDim S3300000x1 ![0] bcast_S3300000_S3300000x1_0 v

/-- A negative index has the node count added. -/
def wrapNeg (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32))) v

/-- The number of edges into each node. -/
def degree (a0 : IVec S2x3200000 32) : FVec F S100000 .f32 :=
  Host.scatterAdd (F := F) scatter_S100000_S3300000x1_S3300000_n_0_0_1
    (broadcastInDim S100000 ![] bcast_S_S100000 (constant (F := F) S_ .f32 0x00000000#32))
    (asColumn (tgtIdx a0))
    (broadcastInDim S3300000 ![] bcast_S_S3300000 (constant (F := F) S_ .f32 0x3F800000#32))

/-- The inverse square root of the degree, zero where the degree is zero. -/
def dinv (a0 : IVec S2x3200000 32) : FVec F S100000 .f32 :=
  select (cmpf (F := F) .ogt (degree a0) (broadcastInDim S100000 ![] bcast_S_S100000 (constant (F := F) S_ .f32 0x00000000#32)))
    (Host.rsqrt (maximumf (degree (F := F) a0) (broadcastInDim S100000 ![] bcast_S_S100000 (constant (F := F) S_ .f32 0x3F800000#32))))
    (broadcastInDim S100000 ![] bcast_S_S100000 (constant (F := F) S_ .f32 0x00000000#32))

/-- The coefficient of each edge. -/
def edgeNorm (a0 : IVec S2x3200000 32) : FVec F S3300000 .f32 :=
  mulf (Host.gather gather_S100000_S3300000x1_S3300000_n_0_n_n_0_1_1 (dinv (F := F) a0) (asColumn (wrapNeg (srcIdx a0))))
    (Host.gather gather_S100000_S3300000x1_S3300000_n_0_n_n_0_1_1 (dinv (F := F) a0) (asColumn (wrapNeg (tgtIdx a0))))

/-- The coefficients as a column. -/
def edgeNormCol (a0 : IVec S2x3200000 32) : FVec F S3300000x1 .f32 :=
  broadcastInDim S3300000x1 ![0] bcast_S3300000_S3300000x1_0 (edgeNorm (F := F) a0)

/-- The two weights side by side. -/
def wcomb (w2 : FVec F S256x1 .f32) (w4 : FVec F S256x64 .f32) : FVec F S256x65 .f32 :=
  concatenate S256x65 1 [⟨S256x1, w2⟩, ⟨S256x64, w4⟩] concatenates_S256x1_S256x64_S256x65_d1

/-- The two biases side by side, as a row. -/
def bcomb (b3 : FVec F S1 .f32) (b5 : FVec F S64 .f32) : FVec F S1x65 .f32 :=
  shapeCast S1x65 (concatenate S65 0 [⟨S1, b3⟩, ⟨S64, b5⟩] concatenates_S1_S64_S65_d0) shapeCasts_S65_S1x65

end Terms

/-- The aggregated array: the products' rows gathered at the sources, scaled, added at the targets. -/
def aggArr (a0 : IVec S2x3200000 32) (P : FVec Ideal S100000x65 .f32) : FVec Ideal S100000x65 .f32 :=
  Host.scatterAdd (F := Ideal) scatter_S100000x65_S3300000x1_S3300000x65_1_0_0_1
    (broadcastInDim S100000x65 ![] bcast_S_S100000x65 (constant (F := Ideal) S_ .f32 0x00000000#32))
    (asColumn (tgtIdx a0))
    (mulf (broadcastInDim S3300000x65 ![0, 1] bcast_S3300000x1_S3300000x65_0_1 (edgeNormCol (F := Ideal) a0))
      (Host.gather gather_S100000x65_S3300000x1_S3300000x65_1_0_n_n_0_1_165 P (asColumn (wrapNeg (srcIdx a0)))))

/-! ## The buffers at the first launch -/

variable (m : (ℓ : Loc nD τ sig) → Buf (Elt Ideal) ℓ) (ρ : Dev nD → PrngReg)

local macro "host_read" : tactic => `(tactic| (after_results_simp <;> rfl))

/-! ## One stretch of host operations at a time, over any contents it starts from -/

section Stretches
variable (Vin : Valuation τ sig (Elt Ideal))

theorem call_v16 : StableHlo.after hostOps0_1 Vin (Proc.devRef .tc main_v16)
    = select (Vin (Proc.devRef .tc main_v12) : IVec S100000 1) (Vin (Proc.devRef .tc main_v15) : FVec Ideal S100000 .f32)
        (broadcastInDim S100000 ![] bcast_S_S100000 (Vin (Proc.devRef .tc main_cst_3) : FVec Ideal S_ .f32)) := by
  dsimp only [hostOps0_1]; host_read
theorem call_v3 : StableHlo.after hostOps0_1 Vin (Proc.devRef .tc main_v3) = Vin (Proc.devRef .tc main_v3) := by
  dsimp only [hostOps0_1]; host_read
theorem call_v6 : StableHlo.after hostOps0_1 Vin (Proc.devRef .tc main_v6) = Vin (Proc.devRef .tc main_v6) := by
  dsimp only [hostOps0_1]; host_read
theorem call_arg1 : StableHlo.after hostOps0_1 Vin (Proc.devRef .tc main_arg1) = Vin (Proc.devRef .tc main_arg1) := by
  dsimp only [hostOps0_1]; host_read
theorem call_arg2 : StableHlo.after hostOps0_1 Vin (Proc.devRef .tc main_arg2) = Vin (Proc.devRef .tc main_arg2) := by
  dsimp only [hostOps0_1]; host_read
theorem call_arg3 : StableHlo.after hostOps0_1 Vin (Proc.devRef .tc main_arg3) = Vin (Proc.devRef .tc main_arg3) := by
  dsimp only [hostOps0_1]; host_read
theorem call_arg4 : StableHlo.after hostOps0_1 Vin (Proc.devRef .tc main_arg4) = Vin (Proc.devRef .tc main_arg4) := by
  dsimp only [hostOps0_1]; host_read
theorem call_arg5 : StableHlo.after hostOps0_1 Vin (Proc.devRef .tc main_arg5) = Vin (Proc.devRef .tc main_arg5) := by
  dsimp only [hostOps0_1]; host_read
theorem call_arg6 : StableHlo.after hostOps0_1 Vin (Proc.devRef .tc main_arg6) = Vin (Proc.devRef .tc main_arg6) := by
  dsimp only [hostOps0_1]; host_read
theorem call_arg7 : StableHlo.after hostOps0_1 Vin (Proc.devRef .tc main_arg7) = Vin (Proc.devRef .tc main_arg7) := by
  dsimp only [hostOps0_1]; host_read

theorem pre_v31 : StableHlo.after hostOps0_2 Vin (Proc.devRef .tc main_v31)
    = (mulf (Host.gather gather_S100000_S3300000x1_S3300000_n_0_n_n_0_1_1 (Vin (Proc.devRef .tc main_v16) : FVec Ideal S100000 .f32)
          (asColumn (wrapNeg (Vin (Proc.devRef .tc main_v3) : IVec S3300000 32))))
        (Host.gather gather_S100000_S3300000x1_S3300000_n_0_n_n_0_1_1 (Vin (Proc.devRef .tc main_v16) : FVec Ideal S100000 .f32)
          (asColumn (wrapNeg (Vin (Proc.devRef .tc main_v6) : IVec S3300000 32)))) : FVec Ideal S3300000 .f32) := by
  dsimp only [hostOps0_2]; host_read
theorem pre_v32 : StableHlo.after hostOps0_2 Vin (Proc.devRef .tc main_v32)
    = wcomb (F := Ideal) (Vin (Proc.devRef .tc main_arg2)) (Vin (Proc.devRef .tc main_arg4)) := by
  dsimp only [hostOps0_2]; host_read
theorem pre_v3 : StableHlo.after hostOps0_2 Vin (Proc.devRef .tc main_v3) = Vin (Proc.devRef .tc main_v3) := by
  dsimp only [hostOps0_2]; host_read
theorem pre_v6 : StableHlo.after hostOps0_2 Vin (Proc.devRef .tc main_v6) = Vin (Proc.devRef .tc main_v6) := by
  dsimp only [hostOps0_2]; host_read
theorem pre_arg1 : StableHlo.after hostOps0_2 Vin (Proc.devRef .tc main_arg1) = Vin (Proc.devRef .tc main_arg1) := by
  dsimp only [hostOps0_2]; host_read
theorem pre_arg3 : StableHlo.after hostOps0_2 Vin (Proc.devRef .tc main_arg3) = Vin (Proc.devRef .tc main_arg3) := by
  dsimp only [hostOps0_2]; host_read
theorem pre_arg5 : StableHlo.after hostOps0_2 Vin (Proc.devRef .tc main_arg5) = Vin (Proc.devRef .tc main_arg5) := by
  dsimp only [hostOps0_2]; host_read
theorem pre_arg6 : StableHlo.after hostOps0_2 Vin (Proc.devRef .tc main_arg6) = Vin (Proc.devRef .tc main_arg6) := by
  dsimp only [hostOps0_2]; host_read
theorem pre_arg7 : StableHlo.after hostOps0_2 Vin (Proc.devRef .tc main_arg7) = Vin (Proc.devRef .tc main_arg7) := by
  dsimp only [hostOps0_2]; host_read

theorem mid_v46 : StableHlo.after hostOps1 Vin (Proc.devRef .tc main_v46)
    = Host.scatterAdd (F := Ideal) scatter_S100000x65_S3300000x1_S3300000x65_1_0_0_1
        (broadcastInDim S100000x65 ![] bcast_S_S100000x65 (constant (F := Ideal) S_ .f32 0x00000000#32))
        (asColumn (Vin (Proc.devRef .tc main_v6) : IVec S3300000 32))
        (mulf (broadcastInDim S3300000x65 ![0, 1] bcast_S3300000x1_S3300000x65_0_1
            (broadcastInDim S3300000x1 ![0] bcast_S3300000_S3300000x1_0 (Vin (Proc.devRef .tc main_v31) : FVec Ideal S3300000 .f32)))
          (Host.gather gather_S100000x65_S3300000x1_S3300000x65_1_0_n_n_0_1_165 (Vin (Proc.devRef .tc main_v33) : FVec Ideal S100000x65 .f32)
            (asColumn (wrapNeg (Vin (Proc.devRef .tc main_v3) : IVec S3300000 32))))) := by
  dsimp only [hostOps1]; host_read
theorem mid_v48 : StableHlo.after hostOps1 Vin (Proc.devRef .tc main_v48)
    = bcomb (F := Ideal) (Vin (Proc.devRef .tc main_arg3)) (Vin (Proc.devRef .tc main_arg5)) := by
  dsimp only [hostOps1]; host_read
theorem mid_v49 : StableHlo.after hostOps1 Vin (Proc.devRef .tc main_v49)
    = shapeCast S1x1 (Vin (Proc.devRef .tc main_arg7) : FVec Ideal S1 .f32) shapeCasts_S1_S1x1 := by
  dsimp only [hostOps1]; host_read
theorem mid_arg6 : StableHlo.after hostOps1 Vin (Proc.devRef .tc main_arg6) = Vin (Proc.devRef .tc main_arg6) := by
  dsimp only [hostOps1]; host_read

theorem post_v52 : StableHlo.after hostOps2 Vin (Proc.devRef .tc main_v52)
    = extractStridedSlice S100000x1 ![0, 1] (Vin (Proc.devRef .tc main_v50) : FVec Ideal S100000x2 .f32) slices_S100000x2_S100000x1_0_1 := by
  dsimp only [hostOps2]; host_read
theorem post_v51 : StableHlo.after hostOps2 Vin (Proc.devRef .tc main_v51)
    = extractStridedSlice S100000x1 ![0, 0] (Vin (Proc.devRef .tc main_v50) : FVec Ideal S100000x2 .f32) slices_S100000x2_S100000x1_0_0 := by
  dsimp only [hostOps2]; host_read

end Stretches

/-! ## The first stretch, from the launch memory -/

variable (m : (ℓ : Loc nD τ sig) → Buf (Elt Ideal) ℓ) (ρ : Dev nD → PrngReg)

theorem W1_v3 (c : Dev nD) : W1 m ρ c (Proc.devRef .tc main_v3) = srcIdx (m ((c.tc : Thread nD τ).loc main_arg0)) := by
  dsimp only [W1, hostOps0]; host_read
theorem W1_v6 (c : Dev nD) : W1 m ρ c (Proc.devRef .tc main_v6) = tgtIdx (m ((c.tc : Thread nD τ).loc main_arg0)) := by
  dsimp only [W1, hostOps0]; host_read
set_option maxHeartbeats 2000000 in
theorem W1_v12 (c : Dev nD) : W1 m ρ c (Proc.devRef .tc main_v12)
    = cmpf (F := Ideal) .ogt (degree (m ((c.tc : Thread nD τ).loc main_arg0))) (broadcastInDim S100000 ![] bcast_S_S100000 (constant (F := Ideal) S_ .f32 0x00000000#32)) := by
  dsimp only [W1, hostOps0]; host_read
set_option maxHeartbeats 2000000 in
theorem W1_v15 (c : Dev nD) : W1 m ρ c (Proc.devRef .tc main_v15)
    = Host.rsqrt (maximumf (degree (F := Ideal) (m ((c.tc : Thread nD τ).loc main_arg0))) (broadcastInDim S100000 ![] bcast_S_S100000 (constant (F := Ideal) S_ .f32 0x3F800000#32))) := by
  dsimp only [W1, hostOps0]; host_read
theorem W1_cst3 (c : Dev nD) : W1 m ρ c (Proc.devRef .tc main_cst_3) = constant (F := Ideal) S_ .f32 0x00000000#32 := by
  dsimp only [W1, hostOps0]; host_read
theorem W1_arg1 (c : Dev nD) : W1 m ρ c (Proc.devRef .tc main_arg1) = (m ((c.tc : Thread nD τ).loc main_arg1)) := by
  dsimp only [W1, hostOps0]; host_read
theorem W1_arg2 (c : Dev nD) : W1 m ρ c (Proc.devRef .tc main_arg2) = (m ((c.tc : Thread nD τ).loc main_arg2)) := by
  dsimp only [W1, hostOps0]; host_read
theorem W1_arg3 (c : Dev nD) : W1 m ρ c (Proc.devRef .tc main_arg3) = (m ((c.tc : Thread nD τ).loc main_arg3)) := by
  dsimp only [W1, hostOps0]; host_read
theorem W1_arg4 (c : Dev nD) : W1 m ρ c (Proc.devRef .tc main_arg4) = (m ((c.tc : Thread nD τ).loc main_arg4)) := by
  dsimp only [W1, hostOps0]; host_read
theorem W1_arg5 (c : Dev nD) : W1 m ρ c (Proc.devRef .tc main_arg5) = (m ((c.tc : Thread nD τ).loc main_arg5)) := by
  dsimp only [W1, hostOps0]; host_read
theorem W1_arg6 (c : Dev nD) : W1 m ρ c (Proc.devRef .tc main_arg6) = (m ((c.tc : Thread nD τ).loc main_arg6)) := by
  dsimp only [W1, hostOps0]; host_read
theorem W1_arg7 (c : Dev nD) : W1 m ρ c (Proc.devRef .tc main_arg7) = (m ((c.tc : Thread nD τ).loc main_arg7)) := by
  dsimp only [W1, hostOps0]; host_read

/-! ## At the first launch -/

theorem W2_v16 (c : Dev nD) : W2 m ρ c (Proc.devRef .tc main_v16) = dinv (F := Ideal) (m ((c.tc : Thread nD τ).loc main_arg0)) := by
  refine (call_v16 (W1 m ρ c)).trans ?_
  rw [W1_v12, W1_v15, W1_cst3]
  rfl

theorem W3_v31 (c : Dev nD) : W3 m ρ c (Proc.devRef .tc main_v31) = edgeNorm (F := Ideal) (m ((c.tc : Thread nD τ).loc main_arg0)) := by
  refine (pre_v31 (W2 m ρ c)).trans ?_
  rw [W2_v16, show W2 m ρ c (Proc.devRef .tc main_v3) = srcIdx (m ((c.tc : Thread nD τ).loc main_arg0)) from (call_v3 (W1 m ρ c)).trans (W1_v3 m ρ c),
    show W2 m ρ c (Proc.devRef .tc main_v6) = tgtIdx (m ((c.tc : Thread nD τ).loc main_arg0)) from (call_v6 (W1 m ρ c)).trans (W1_v6 m ρ c)]
  rfl
theorem W3_v3 (c : Dev nD) : W3 m ρ c (Proc.devRef .tc main_v3) = srcIdx (m ((c.tc : Thread nD τ).loc main_arg0)) :=
  (pre_v3 (W2 m ρ c)).trans ((call_v3 (W1 m ρ c)).trans (W1_v3 m ρ c))
theorem W3_v6 (c : Dev nD) : W3 m ρ c (Proc.devRef .tc main_v6) = tgtIdx (m ((c.tc : Thread nD τ).loc main_arg0)) :=
  (pre_v6 (W2 m ρ c)).trans ((call_v6 (W1 m ρ c)).trans (W1_v6 m ρ c))
theorem W3_v32 (c : Dev nD) : W3 m ρ c (Proc.devRef .tc main_v32) = wcomb (F := Ideal) (m ((c.tc : Thread nD τ).loc main_arg2)) (m ((c.tc : Thread nD τ).loc main_arg4)) := by
  refine (pre_v32 (W2 m ρ c)).trans ?_
  rw [show W2 m ρ c (Proc.devRef .tc main_arg2) = (m ((c.tc : Thread nD τ).loc main_arg2)) from (call_arg2 (W1 m ρ c)).trans (W1_arg2 m ρ c),
    show W2 m ρ c (Proc.devRef .tc main_arg4) = (m ((c.tc : Thread nD τ).loc main_arg4)) from (call_arg4 (W1 m ρ c)).trans (W1_arg4 m ρ c)]
theorem W3_arg1 (c : Dev nD) : W3 m ρ c (Proc.devRef .tc main_arg1) = (m ((c.tc : Thread nD τ).loc main_arg1)) :=
  (pre_arg1 (W2 m ρ c)).trans ((call_arg1 (W1 m ρ c)).trans (W1_arg1 m ρ c))
theorem W3_arg3 (c : Dev nD) : W3 m ρ c (Proc.devRef .tc main_arg3) = (m ((c.tc : Thread nD τ).loc main_arg3)) :=
  (pre_arg3 (W2 m ρ c)).trans ((call_arg3 (W1 m ρ c)).trans (W1_arg3 m ρ c))
theorem W3_arg5 (c : Dev nD) : W3 m ρ c (Proc.devRef .tc main_arg5) = (m ((c.tc : Thread nD τ).loc main_arg5)) :=
  (pre_arg5 (W2 m ρ c)).trans ((call_arg5 (W1 m ρ c)).trans (W1_arg5 m ρ c))
theorem W3_arg6 (c : Dev nD) : W3 m ρ c (Proc.devRef .tc main_arg6) = (m ((c.tc : Thread nD τ).loc main_arg6)) :=
  (pre_arg6 (W2 m ρ c)).trans ((call_arg6 (W1 m ρ c)).trans (W1_arg6 m ρ c))
theorem W3_arg7 (c : Dev nD) : W3 m ρ c (Proc.devRef .tc main_arg7) = (m ((c.tc : Thread nD τ).loc main_arg7)) :=
  (pre_arg7 (W2 m ρ c)).trans ((call_arg7 (W1 m ρ c)).trans (W1_arg7 m ρ c))

/-! ## After the first launch -/

/-- The projection's result array: the features times the two weights side by side. -/
theorem W4_v33 (c : Dev nD) :
    W4 m ρ c (Proc.devRef .tc main_v33) = projArr (m ((c.tc : Thread nD τ).loc main_arg1)) (wcomb (F := Ideal) (m ((c.tc : Thread nD τ).loc main_arg2)) (m ((c.tc : Thread nD τ).loc main_arg4))) :=
  (W4_arr m ρ c 2).trans ((proj_final (V3 m ρ) c).trans (congrArg₂ projArr (W3_arg1 m ρ c) (W3_v32 m ρ c)))
theorem W4_v31 (c : Dev nD) : W4 m ρ c (Proc.devRef .tc main_v31) = edgeNorm (F := Ideal) (m ((c.tc : Thread nD τ).loc main_arg0)) :=
  (W4_of_ne m ρ c main_v31 (by decide)).trans (W3_v31 m ρ c)
theorem W4_v3 (c : Dev nD) : W4 m ρ c (Proc.devRef .tc main_v3) = srcIdx (m ((c.tc : Thread nD τ).loc main_arg0)) :=
  (W4_of_ne m ρ c main_v3 (by decide)).trans (W3_v3 m ρ c)
theorem W4_v6 (c : Dev nD) : W4 m ρ c (Proc.devRef .tc main_v6) = tgtIdx (m ((c.tc : Thread nD τ).loc main_arg0)) :=
  (W4_of_ne m ρ c main_v6 (by decide)).trans (W3_v6 m ρ c)
theorem W4_arg3 (c : Dev nD) : W4 m ρ c (Proc.devRef .tc main_arg3) = (m ((c.tc : Thread nD τ).loc main_arg3)) :=
  (W4_of_ne m ρ c main_arg3 (by decide)).trans (W3_arg3 m ρ c)
theorem W4_arg5 (c : Dev nD) : W4 m ρ c (Proc.devRef .tc main_arg5) = (m ((c.tc : Thread nD τ).loc main_arg5)) :=
  (W4_of_ne m ρ c main_arg5 (by decide)).trans (W3_arg5 m ρ c)
theorem W4_arg6 (c : Dev nD) : W4 m ρ c (Proc.devRef .tc main_arg6) = (m ((c.tc : Thread nD τ).loc main_arg6)) :=
  (W4_of_ne m ρ c main_arg6 (by decide)).trans (W3_arg6 m ρ c)
theorem W4_arg7 (c : Dev nD) : W4 m ρ c (Proc.devRef .tc main_arg7) = (m ((c.tc : Thread nD τ).loc main_arg7)) :=
  (W4_of_ne m ρ c main_arg7 (by decide)).trans (W3_arg7 m ρ c)

/-! ## At the second launch, and the results -/

theorem V5_v46 (c : Dev nD) : V5 m ρ c main_v46
    = aggArr (m ((c.tc : Thread nD τ).loc main_arg0)) (projArr (m ((c.tc : Thread nD τ).loc main_arg1)) (wcomb (F := Ideal) (m ((c.tc : Thread nD τ).loc main_arg2)) (m ((c.tc : Thread nD τ).loc main_arg4)))) := by
  refine (mid_v46 (W4 m ρ c)).trans ?_
  rw [W4_v6, W4_v31, W4_v33, W4_v3]
  rfl
theorem V5_v48 (c : Dev nD) : V5 m ρ c main_v48 = bcomb (F := Ideal) (m ((c.tc : Thread nD τ).loc main_arg3)) (m ((c.tc : Thread nD τ).loc main_arg5)) := by
  refine (mid_v48 (W4 m ρ c)).trans ?_
  rw [W4_arg3, W4_arg5]
theorem V5_v49 (c : Dev nD) : V5 m ρ c main_v49 = shapeCast S1x1 ((m ((c.tc : Thread nD τ).loc main_arg7)) : FVec Ideal S1 .f32) shapeCasts_S1_S1x1 := by
  refine (mid_v49 (W4 m ρ c)).trans ?_
  rw [W4_arg7]
theorem V5_arg6 (c : Dev nD) : V5 m ρ c main_arg6 = (m ((c.tc : Thread nD τ).loc main_arg6)) :=
  (mid_arg6 (W4 m ρ c)).trans (W4_arg6 m ρ c)

/-- The second launch's result array, as a term of the argument arrays. -/
def outArr (a0 : IVec S2x3200000 32) (x : FVec Ideal S100000x256 .f32) (w2 : FVec Ideal S256x1 .f32) (b3 : FVec Ideal S1 .f32)
    (w4 : FVec Ideal S256x64 .f32) (b5 : FVec Ideal S64 .f32) (w6 : FVec Ideal S64x1 .f32) (b7 : FVec Ideal S1 .f32) :
    FVec Ideal S100000x2 .f32 :=
  finArr (aggArr a0 (projArr x (wcomb (F := Ideal) w2 w4))) (bcomb (F := Ideal) b3 b5) w6 (shapeCast S1x1 b7 shapeCasts_S1_S1x1)

theorem W6_v50 (c : Dev nD) : W6 m ρ c (Proc.devRef .tc main_v50)
    = outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W6_arr m ρ c 4).trans ((fin_final (V5 m ρ) c).trans ?_)
  rw [V5_v46, V5_v48, V5_arg6, V5_v49]
  rfl

/-- The classifier's output buffer at the end: column 1 of the second launch's result. -/
theorem W7_v52 (c : Dev nD) : W7 m ρ c (Proc.devRef .tc main_v52)
    = extractStridedSlice S100000x1 ![0, 1]
        (outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
        slices_S100000x2_S100000x1_0_1 := by
  refine (post_v52 (W6 m ρ c)).trans ?_
  rw [W6_v50]
/-- The estimator's output buffer at the end: column 0 of the second launch's result. -/
theorem W7_v51 (c : Dev nD) : W7 m ρ c (Proc.devRef .tc main_v51)
    = extractStridedSlice S100000x1 ![0, 0]
        (outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
        slices_S100000x2_S100000x1_0_0 := by
  refine (post_v51 (W6 m ρ c)).trans ?_
  rw [W6_v50]

end Cert.KernelIdeal.Hand

end
-- ==== Proof.LibSegmentSum.lean ====
/-
  Row gather and accumulating row scatter along the leading axis, read at an index, and the one algebraic law a
  degree-normalised neighbourhood sum rests on: a nonnegative real factor passes through a finite sum of extended reals.
  Nothing here mentions a particular program; the sizes are parameters.
-/
import Idealize.ShloMosaic.PureOps.Ideal
import Idealize.ShloMosaic.PureOps.Ideal.Laws
import Idealize.ShloMosaic.Lib.ValueIdx

noncomputable section

open scoped BigOperators

namespace Idealize.ShloMosaic.SegmentSum

open Idealize.ShloMosaic
open Idealize.ShloMosaic.ValueIdx

/-! ## A nonnegative real factor and finite sums of extended reals

The extended reals are not a semiring: `(⊤ + ⊥) * c` and `⊤ * c + ⊥ * c` differ in general. A factor that is a
nonnegative REAL is harmless: it sends each infinity to itself or to zero, and both sides agree. -/

/-- Multiplication on the right by a nonnegative real distributes over every finite sum of extended reals. -/
theorem sum_mul_coe_nonneg {ι : Type*} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- In a scatter-add into zeros, a factor that equals one nonnegative real `r` on every update landing at `i` can be
    taken out of the sum at `i`: the scattered products at `i` are `r` times the scattered first factors at `i`. -/
theorem hostScatterAdd_zero_mul_fibre {s si su : Shape} (d : ScatterDims s si su) {w : Nat} (idx : IVec si w)
    (U B : su.Idx → EReal) (i : s.Idx) (r : ℝ) (hr : 0 ≤ r)
    (hB : ∀ j, d.resultIdx? j idx = some i → B j = (r : EReal)) :
    Ideal.hostScatterAdd d (fun _ => 0) idx (fun j => U j * B j) i
      = Ideal.hostScatterAdd d (fun _ => 0) idx U i * (r : EReal) := by
  unfold Ideal.hostScatterAdd
  rw [zero_add, zero_add, sum_mul_coe_nonneg _ _ r hr]
  refine Finset.sum_congr rfl fun j hj => ?_
  show U j * B j = U j * (r : EReal)
  rw [hB j (Finset.mem_filter.mp hj).2]

/-! ## The accumulating row scatter along the leading axis

What a segment sum of rows lowers to: update row `e` of an `[E, D]` array is added into operand row `idx[e, 0]` of an
`[N, D]` array, column by column. Axis 0 of the operand is an inserted window axis (the update has no coordinate on
it), axis 1 is the window; the start index is read signed and is not clamped. -/

/-- The dimension numbers of that scatter for an operand `[N, D]`, scatter indices `[E, 1]` and updates `[E, D]`;
    their conditions `wf` are decided on literal sizes. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update that lands at row `n` was addressed to row `n`: if update element `j` lands at operand index `i`, the
    scatter index of `j`'s row, read as a signed integer, is `i`'s row number. (On axis 0 the landing coordinate is
    the start index plus a window coordinate that is zero, the axis being inserted.) -/
theorem rowScatter_lands {N E D w : Nat}
    (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatterDims N E D wf).resultIdx? j idx = some i) :
    (idx (ix2 (j 0) 0)).toInt = ((i 0).val : ℤ) := by
  unfold ScatterDims.resultIdx? at h
  split at h
  · rename_i hin
    have hv : ((rowScatterDims N E D wf).start j idx 0 + (rowScatterDims N E D wf).window j 0).toNat = (i 0).val :=
      congrArg Fin.val (congrFun (Option.some.inj h) 0)
    have hpos := (hin 0).1
    have hwin : (rowScatterDims N E D wf).window j 0 = 0 := by
      unfold ScatterDims.window
      rw [dif_neg (by simp [ScatterDims.sKept, Shape.kept, List.mem_filter, List.mem_finRange])]
    have hstart : (rowScatterDims N E D wf).start j idx 0 = (idx (ix2 (j 0) 0)).toInt := by
      unfold ScatterDims.start
      rw [dif_pos (show (0 : Fin 2) ∈ (rowScatterDims N E D wf).scatterDimsToOperandDims from List.mem_singleton.mpr rfl)]
      have hsi : (rowScatterDims N E D wf).siIdx j ⟨List.idxOf (0 : Fin 2) (rowScatterDims N E D wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    rw [hwin, hstart] at hv hpos
    omega
  · cases h

/-! ## The clamped row a gather reads, and the row a landed update was addressed to -/

/-- The operand row a gather along axis 0 reads for start-index row `e`: the index `idx[e, 0]` read as a signed
    integer, a negative one taken to `0`, clamped to the last row `N − 1`. -/
def clampRow (N : Nat) (hN : 0 < N) {E w : Nat} (idx : IVec ⟨2, ![E, 1]⟩ w) (e : Fin E) : Fin N :=
  ⟨min (idx (ix2 e 0)).toInt.toNat (N - 1), by omega⟩

/-- If update element `j` lands at operand index `i` under the indices `idx`, then any index array `idx'` that reads
    the same signed integer at `j`'s row gathers exactly row `i 0` there: the integer is `i`'s row number, nonnegative
    and below `N`, so neither clamp moves it. -/
theorem clampRow_of_lands {N E D w : Nat} (hN : 0 < N)
    (wf : ScatterDims.WF ⟨2, ![N, D]⟩ ⟨2, ![E, 1]⟩ ⟨2, ![E, D]⟩ [1] [0] [0] 1)
    (idx idx' : IVec ⟨2, ![E, 1]⟩ w) (j : (⟨2, ![E, D]⟩ : Shape).Idx) (i : (⟨2, ![N, D]⟩ : Shape).Idx)
    (h : (rowScatterDims N E D wf).resultIdx? j idx = some i)
    (hsame : (idx' (ix2 (j 0) 0)).toInt = (idx (ix2 (j 0) 0)).toInt) :
    clampRow N hN idx' (j 0) = i 0 := by
  have hl := rowScatter_lands wf idx j i h
  have hi : (i 0).val < N := idx2_lt0 i
  refine Fin.ext ?_
  show min (idx' (ix2 (j 0) 0)).toInt.toNat (N - 1) = (i 0).val
  rw [hsame, hl]
  omega

/-! ## The row gather along the leading axis

What `x[idx]` of an `[N, D]` array at an index column `idx : [E, 1]` lowers to: result row `e` is operand row
`idx[e, 0]`, read signed and clamped into `[0, N − 1]`; axis 0 of the operand is collapsed (slice size 1), axis 1 is
the offset axis, taken whole. -/

section Gather
variable {α : Type}

/-- The dimension numbers of that gather for an operand `[N, D]`, start indices `[E, 1]` and result `[E, D]`; their
    conditions `wf` are decided on literal sizes. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather read at `(e, c)`: the operand at the clamped row of `e` and column `c`. (On axis 0 the operand
    coordinate is the clamped start index alone; on axis 1 it is the result's own column, the start being zero there.) -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (y : (⟨2, ![E, D]⟩ : Shape).Idx) :
    Host.gather (rowGatherDims N E D wf) x idx y = x (ix2 (clampRow N hN idx (y 0)) (y 1)) := by
  unfold Host.gather
  congr 1
  funext a
  refine Fin.ext ?_
  match a with
  | ⟨0, _⟩ =>
    show (rowGatherDims N E D wf).start y idx 0 + (rowGatherDims N E D wf).batchCoord y 0
      + (rowGatherDims N E D wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx y ⟨List.idxOf (0 : Fin 2) (rowGatherDims N E D wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  | ⟨1, _⟩ =>
    show (rowGatherDims N E D wf).start y idx 1 + (rowGatherDims N E D wf).batchCoord y 1
      + (rowGatherDims N E D wf).offCoord y 1 = (y 1).val
    have hst : (rowGatherDims N E D wf).start y idx 1 = 0 := by
      unfold GatherDims.start
      rw [dif_neg (fun h => absurd (List.mem_singleton.mp h) (show ¬ (1 : Fin 2) = 0 by decide))]
    have hoff : (rowGatherDims N E D wf).offCoord y 1 = (y 1).val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hst, GatherDims.batchCoord_eq_zero _ _ _ List.not_mem_nil, hoff]
    omega

/-! ## The gather of a flat array at an index column

What `x[idx]` of an `[N]` array at `idx : [E, 1]` lowers to: result element `e` is `x` at `idx[e, 0]`, read signed and
clamped into `[0, N − 1]`; no offset axis. -/

/-- The dimension numbers of that gather for an operand `[N]`, start indices `[E, 1]` and result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at the clamped row of `e`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecGatherDims N E wf) x idx y = x (ix1 (clampRow N hN idx (y 0))) := by
  unfold Host.gather
  congr 1
  funext a
  obtain rfl : a = 0 := Subsingleton.elim _ _
  refine Fin.ext ?_
  show (vecGatherDims N E wf).start y idx 0 + (vecGatherDims N E wf).batchCoord y 0
    + (vecGatherDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx y ⟨List.idxOf (0 : Fin 1) (vecGatherDims N E wf).startIndexMap,
      List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

end Gather

/-! ## The normalisation coefficient is a nonnegative real

Scattering ones into zeros counts, at each operand element, the updates that land there. The coefficient
`count > 0 ? count^(-1/2) : 0` is therefore a nonnegative real number, never an infinity. -/

/-- A finite sum of ones in the extended reals is the number of its terms. -/
theorem sum_one_eq_card {ι : Type*} (s : Finset ι) : ∑ _j ∈ s, (1 : EReal) = ((s.card : ℝ) : EReal) := by
  classical
  induction s using Finset.induction_on with
  | empty => simp
  | insert a s ha ih =>
    rw [Finset.sum_insert ha, Finset.card_insert_of_notMem ha, ih, Nat.cast_succ, EReal.coe_add, EReal.coe_one,
      add_comm]

/-- For a natural number `n` read as an extended real, `n > 0 ? n^(-1/2) : 0` is a nonnegative real: zero when
    `n = 0`, the inverse of the real square root otherwise. -/
theorem select_rsqrt_natCast_real (n : ℕ) :
    ∃ r : ℝ, 0 ≤ r ∧
      Scalar.select (Ideal.cmp .ogt ((n : ℝ) : EReal) 0) (Ideal.rsqrt ((n : ℝ) : EReal)) (0 : EReal) = (r : EReal) := by
  rcases Nat.eq_zero_or_pos n with rfl | hn
  · refine ⟨0, le_refl _, ?_⟩
    have hc : Ideal.cmp .ogt (((0 : ℕ) : ℝ) : EReal) 0 = 0#1 := by
      show BitVec.ofBool (decide ((0 : EReal) < (((0 : ℕ) : ℝ) : EReal))) = 0#1
      rw [decide_eq_false (by simp)]
      rfl
    rw [hc, select_zero]
    rfl
  · have hpos : (0 : ℝ) < (n : ℝ) := Nat.cast_pos.mpr hn
    refine ⟨(Real.sqrt (n : ℝ))⁻¹, inv_nonneg.mpr (Real.sqrt_nonneg _), ?_⟩
    have hc : Ideal.cmp .ogt ((n : ℝ) : EReal) 0 = 1#1 := by
      show BitVec.ofBool (decide ((0 : EReal) < ((n : ℝ) : EReal))) = 1#1
      rw [decide_eq_true (EReal.coe_pos.mpr hpos)]
      rfl
    rw [hc, select_one, Ideal.rsqrt_coe, if_neg (not_lt.mpr hpos.le), if_neg hpos.ne']

/-- The degree coefficient at operand element `i`: with `g` the scatter-add of ones into zeros at `i` (the number of
    updates landing there), `g > 0 ? g^(-1/2) : 0` is a nonnegative real. -/
theorem degree_coeff_real {s si su : Shape} (d : ScatterDims s si su) {w : Nat} (idx : IVec si w) (i : s.Idx) :
    ∃ r : ℝ, 0 ≤ r ∧
      Scalar.select (Ideal.cmp .ogt (Ideal.hostScatterAdd d (fun _ => (0 : EReal)) idx (fun _ => (1 : EReal)) i) 0)
        (Ideal.rsqrt (Ideal.hostScatterAdd d (fun _ => (0 : EReal)) idx (fun _ => (1 : EReal)) i)) (0 : EReal)
        = (r : EReal) := by
  have hg : ∃ n : ℕ, Ideal.hostScatterAdd d (fun _ => (0 : EReal)) idx (fun _ => (1 : EReal)) i = ((n : ℝ) : EReal) := by
    unfold Ideal.hostScatterAdd
    exact ⟨_, by rw [zero_add, sum_one_eq_card]⟩
  obtain ⟨n, hn⟩ := hg
  rw [hn]
  exact select_rsqrt_natCast_real n

end Idealize.ShloMosaic.SegmentSum

end
-- ==== Proof.LibRowScatter.lean ====
/-
  The accumulating row scatter along the leading axis read at an index as ONE sum over the update rows, and its
  composition with a row gather scaled row by row: the shape a neighbourhood sum over a graph's edges takes
  (gather the source rows, scale each by the edge's coefficient, add into the target rows). Nothing here mentions a
  particular program; the sizes are parameters. Built on the row scatter and row gather of LibSegmentSum.
-/
import proofs.«123521_j51917564674443_1_alg».proof.Proof.LibSegmentSum

noncomputable section

open scoped BigOperators

namespace Idealize.ShloMosaic.SegmentSum

open Idealize.ShloMosaic
open Idealize.ShloMosaic.ValueIdx

/-! ## Where an update of the row scatter lands

For the row scatter (operand `[N, D]`, indices `[E, 1]`, updates `[E, D]`) the window start on axis 0 is the signed
scatter index of the update's row and the window coordinate there is zero (the axis is inserted); on axis 1 the start
is zero and the window coordinate is the update's own column. -/

section Lands
variable {N E D w : Nat}
  (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

theorem rowScatter_start0 :
    (rowScatterDims N E D wf).start j idx 0 = (idx (ix2 (j 0) 0)).toInt := by
  unfold ScatterDims.start
  rw [dif_pos (show (0 : Fin 2) ∈ (rowScatterDims N E D wf).scatterDimsToOperandDims from List.mem_singleton.mpr rfl)]
  have hsi : (rowScatterDims N E D wf).siIdx j ⟨List.idxOf (0 : Fin 2) (rowScatterDims N E D wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowScatter_window0 : (rowScatterDims N E D wf).window j 0 = 0 := by
  unfold ScatterDims.window
  rw [dif_neg (by simp [ScatterDims.sKept, Shape.kept, List.mem_filter, List.mem_finRange])]

theorem rowScatter_start1 : (rowScatterDims N E D wf).start j idx 1 = 0 := by
  unfold ScatterDims.start
  rw [dif_neg (fun h => absurd (List.mem_singleton.mp h) (show ¬ (1 : Fin 2) = 0 by decide))]

theorem rowScatter_window1 : (rowScatterDims N E D wf).window j 1 = (j 1).val := by
  unfold ScatterDims.window
  rw [dif_pos (show (1 : Fin 2) ∈ (rowScatterDims N E D wf).sKept by
    simp [ScatterDims.sKept, Shape.kept, List.mem_filter, List.mem_finRange])]
  rfl

/-- An update element lands at operand index `i` exactly when its row's scatter index, read signed, is `i`'s row
    number and its column is `i`'s column. -/
theorem rowScatter_resultIdx_iff (i : (⟨2, ![N, D]⟩ : Shape).Idx) :
    (rowScatterDims N E D wf).resultIdx? j idx = some i
      ↔ (idx (ix2 (j 0) 0)).toInt = ((i 0).val : ℤ) ∧ (j 1).val = (i 1).val := by
  have hs0 := rowScatter_start0 wf idx j
  have hw0 := rowScatter_window0 wf j
  have hs1 := rowScatter_start1 wf idx j
  have hw1 := rowScatter_window1 wf j
  have hi0 : (i 0).val < N := idx2_lt0 i
  have hi1 : (i 1).val < D := idx2_lt1 i
  have hj1 : (j 1).val < D := idx2_lt1 j
  constructor
  · intro h
    unfold ScatterDims.resultIdx? at h
    split at h
    · rename_i hin
      have e := Option.some.inj h
      have v0 : ((rowScatterDims N E D wf).start j idx 0 + (rowScatterDims N E D wf).window j 0).toNat = (i 0).val :=
        congrArg Fin.val (congrFun e 0)
      have v1 : ((rowScatterDims N E D wf).start j idx 1 + (rowScatterDims N E D wf).window j 1).toNat = (i 1).val :=
        congrArg Fin.val (congrFun e 1)
      have p0 := (hin 0).1
      rw [hs0, hw0] at v0 p0
      rw [hs1, hw1] at v1
      constructor <;> omega
    · cases h
  · rintro ⟨hr, hc⟩
    have hall : ∀ a, 0 ≤ (rowScatterDims N E D wf).start j idx a + (rowScatterDims N E D wf).window j a
        ∧ (rowScatterDims N E D wf).start j idx a + (rowScatterDims N E D wf).window j a
          < ((⟨2, ![N, D]⟩ : Shape).size a) := by
      intro a
      match a with
      | ⟨0, _⟩ =>
        show 0 ≤ (rowScatterDims N E D wf).start j idx 0 + (rowScatterDims N E D wf).window j 0
          ∧ (rowScatterDims N E D wf).start j idx 0 + (rowScatterDims N E D wf).window j 0 < (N : ℤ)
        rw [hs0, hw0]; omega
      | ⟨1, _⟩ =>
        show 0 ≤ (rowScatterDims N E D wf).start j idx 1 + (rowScatterDims N E D wf).window j 1
          ∧ (rowScatterDims N E D wf).start j idx 1 + (rowScatterDims N E D wf).window j 1 < (D : ℤ)
        rw [hs1, hw1]; omega
    unfold ScatterDims.resultIdx?
    rw [dif_pos hall]
    congr 1
    funext a
    refine Fin.ext ?_
    match a with
    | ⟨0, _⟩ =>
      show ((rowScatterDims N E D wf).start j idx 0 + (rowScatterDims N E D wf).window j 0).toNat = (i 0).val
      rw [hs0, hw0]; omega
    | ⟨1, _⟩ =>
      show ((rowScatterDims N E D wf).start j idx 1 + (rowScatterDims N E D wf).window j 1).toNat = (i 1).val
      rw [hs1, hw1]; omega

end Lands

/-! ## The row scatter read at an index -/

/-- The accumulating row scatter at `(n, c)`: the operand there plus the sum, over the update rows `e` whose scatter
    index is `n`, of the update at `(e, c)` — column by column, whatever the number of columns. -/
theorem rowScatterAdd_apply {N E D w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (U : (⟨2, ![E, D]⟩ : Shape).Idx → EReal) (n : Fin N) (c : Fin D) :
    Ideal.hostScatterAdd (rowScatterDims N E D wf) x idx U (ix2 n c)
      = x (ix2 n c)
        + ∑ e ∈ Finset.univ.filter (fun e : Fin E => (idx (ix2 e 0)).toInt = (n.val : ℤ)), U (ix2 e c) := by
  unfold Ideal.hostScatterAdd
  congr 1
  refine Finset.sum_nbij' (fun j => j 0) (fun e => ix2 e c) ?_ ?_ ?_ ?_ ?_
  · intro j hj
    have h := (rowScatter_resultIdx_iff wf idx j (ix2 n c)).mp (Finset.mem_filter.mp hj).2
    exact Finset.mem_filter.mpr ⟨Finset.mem_univ _, h.1⟩
  · intro e he
    exact Finset.mem_filter.mpr ⟨Finset.mem_univ _,
      (rowScatter_resultIdx_iff wf idx (ix2 e c) (ix2 n c)).mpr ⟨(Finset.mem_filter.mp he).2, rfl⟩⟩
  · intro j hj
    have h := (rowScatter_resultIdx_iff wf idx j (ix2 n c)).mp (Finset.mem_filter.mp hj).2
    have hc : j 1 = c := Fin.ext h.2
    rw [← hc]
    exact (eq_ix2 j).symm
  · intro e _
    rfl
  · intro j hj
    have h := (rowScatter_resultIdx_iff wf idx j (ix2 n c)).mp (Finset.mem_filter.mp hj).2
    have hc : j 1 = c := Fin.ext h.2
    rw [← hc]
    exact congrArg U (eq_ix2 j)

/-- The sum a neighbourhood aggregation computes at target row `n` from a column `p` of the source rows: over the
    edges `e` whose target index `col[e]` is `n`, the edge's coefficient times `p` at the edge's (clamped) source row. -/
def edgeSum (N : Nat) (hN : 0 < N) {E w : Nat} (col row : IVec ⟨2, ![E, 1]⟩ w)
    (coef : (⟨2, ![E, 1]⟩ : Shape).Idx → EReal) (p : Fin N → EReal) (n : Fin N) : EReal :=
  ∑ e ∈ Finset.univ.filter (fun e : Fin E => (col (ix2 e 0)).toInt = (n.val : ℤ)),
    coef (ix2 e 0) * p (clampRow N hN row e)

/-- Gather the rows `row` of `P`, scale row `e` by `coef[e]`, add into the rows `col` of zeros: at `(n, c)` this is
    the edge sum of column `c` of `P`. The updates are given as any array `U` that reads `coef[e] · P[row e, c]`. -/
theorem scatter_scaled_gather_apply {N E D w : Nat} (hN : 0 < N)
    (wfs : ScatterDims.WF ⟨2, ![N, D]⟩ ⟨2, ![E, 1]⟩ ⟨2, ![E, D]⟩ [1] [0] [0] 1)
    (col row : IVec ⟨2, ![E, 1]⟩ w) (coef : (⟨2, ![E, 1]⟩ : Shape).Idx → EReal)
    (P : (⟨2, ![N, D]⟩ : Shape).Idx → EReal) (U : (⟨2, ![E, D]⟩ : Shape).Idx → EReal)
    (hU : ∀ (e : Fin E) (c : Fin D), U (ix2 e c) = coef (ix2 e 0) * P (ix2 (clampRow N hN row e) c))
    (n : Fin N) (c : Fin D) :
    Ideal.hostScatterAdd (rowScatterDims N E D wfs) (fun _ => 0) col U (ix2 n c)
      = edgeSum N hN col row coef (fun r => P (ix2 r c)) n := by
  rw [rowScatterAdd_apply, zero_add]
  unfold edgeSum
  exact Finset.sum_congr rfl fun e _ => hU e c

end Idealize.ShloMosaic.SegmentSum

end
-- ==== Proof.Spec.lean ====
/-
  What both programs compute at a node, on the extended reals.

  With `col`, `row` the target and source index columns of the edges (self loops included) and `coef` the edge
  coefficients, the estimator output at node n is the edge sum of the projected feature x · W_est plus its bias, and the
  classifier output is the 64 edge sums of the columns of x · W_gnn, each plus its bias, contracted with the classifier
  weight, plus the classifier bias. Sizes are the literal ones: 100000 nodes, 3300000 edges, 256 features, 64 hidden.
-/
import proofs.«123521_j51917564674443_1_alg».proof.Proof.LibRowScatter

noncomputable section

open scoped BigOperators

namespace Cert.Spec

open Idealize.ShloMosaic Idealize.ShloMosaic.ValueIdx Idealize.ShloMosaic.SegmentSum

theorem nodes_pos : 0 < 100000 := by decide

/-- The estimator's output at node `n`. -/
def sNode (col row : IVec (⟨2, ![3300000, 1]⟩ : Shape) 32) (coef : (⟨2, ![3300000, 1]⟩ : Shape).Idx → EReal)
    (x : (⟨2, ![100000, 256]⟩ : Shape).Idx → EReal) (We : (⟨2, ![256, 1]⟩ : Shape).Idx → EReal)
    (be : (⟨1, ![1]⟩ : Shape).Idx → EReal) (n : Fin 100000) : EReal :=
  edgeSum 100000 nodes_pos col row coef (fun r => ∑ k : Fin 256, x (ix2 r k) * We (ix2 k (0 : Fin 1))) n
    + be (ix1 (0 : Fin 1))

/-- The classifier's output at node `n`. -/
def yNode (col row : IVec (⟨2, ![3300000, 1]⟩ : Shape) 32) (coef : (⟨2, ![3300000, 1]⟩ : Shape).Idx → EReal)
    (x : (⟨2, ![100000, 256]⟩ : Shape).Idx → EReal) (Wg : (⟨2, ![256, 64]⟩ : Shape).Idx → EReal)
    (bg : (⟨1, ![64]⟩ : Shape).Idx → EReal) (Wc : (⟨2, ![64, 1]⟩ : Shape).Idx → EReal)
    (bc : (⟨1, ![1]⟩ : Shape).Idx → EReal) (n : Fin 100000) : EReal :=
  (∑ h : Fin 64,
      (edgeSum 100000 nodes_pos col row coef (fun r => ∑ k : Fin 256, x (ix2 r k) * Wg (ix2 k h)) n + bg (ix1 h))
        * Wc (ix2 h (0 : Fin 1)))
    + bc (ix1 (0 : Fin 1))

end Cert.Spec

end
-- ==== Proof.LibHostBroadcast.lean ====
/-
  The host's broadcast_in_dim in the few forms a dense layer uses, read at an index.

  A scalar spread over any shape; a length-b vector made a 1 by b row and the row repeated down a rows (a bias); a
  length-a vector made an a by 1 column and the column repeated across b columns (a per-row quantity kept as a column).
-/
import Idealize.ShloMosaic.Lib.Pipeline.Value
import Idealize.ShloMosaic.Lib.ValueIdx

namespace Idealize.ShloMosaic.HostBroadcast

open Idealize.ShloMosaic Idealize.ShloMosaic.ValueIdx Idealize.ShloMosaic.Pipeline

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A length-b vector as a 1 by b row. -/
theorem vec_row_apply {b : ℕ} (h : (⟨1, ![b]⟩ : Shape).BroadcastsInDim ⟨2, ![1, b]⟩ ![1])
    (x : (⟨1, ![b]⟩ : Shape).Idx → α) (j : (⟨2, ![1, b]⟩ : Shape).Idx) :
    broadcastInDim ⟨2, ![1, b]⟩ ![1] h x j = x (ix1 (j 1)) :=
  broadcastInDim_apply _ h x j (ix1 (j 1)) (fun a => match a with
    | ⟨0, _⟩ => by
      show (j 1).val = if b = 1 then 0 else (j 1).val
      split
      · have := (j 1).isLt; simp at this; omega
      · rfl)

/-- A 1 by b row repeated down a rows. -/
theorem row_rows_apply {a b : ℕ} (h : (⟨2, ![1, b]⟩ : Shape).BroadcastsInDim ⟨2, ![a, b]⟩ ![0, 1])
    (x : (⟨2, ![1, b]⟩ : Shape).Idx → α) (j : (⟨2, ![a, b]⟩ : Shape).Idx) :
    broadcastInDim ⟨2, ![a, b]⟩ ![0, 1] h x j = x (ix2 (0 : Fin 1) (j 1)) :=
  broadcastInDim_apply _ h x j (ix2 (0 : Fin 1) (j 1)) (fun ax => match ax with
    | ⟨0, _⟩ => by
      show 0 = if (1 : ℕ) = 1 then 0 else (j 0).val
      rw [if_pos rfl]
    | ⟨1, _⟩ => by
      show (j 1).val = if b = 1 then 0 else (j 1).val
      split
      · have := (j 1).isLt; simp at this; omega
      · rfl)

/-- A bias: the vector at the column, whatever the row. -/
theorem bias_apply {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (j : (⟨2, ![a, b]⟩ : Shape).Idx) :
    broadcastInDim ⟨2, ![a, b]⟩ ![0, 1] h2 (broadcastInDim ⟨2, ![1, b]⟩ ![1] h1 x) j = x (ix1 (j 1)) :=
  (row_rows_apply h2 _ j).trans (vec_row_apply h1 x _)

/-- A length-a vector as an a by 1 column. -/
theorem vec_col_apply {a : ℕ} (h : (⟨1, ![a]⟩ : Shape).BroadcastsInDim ⟨2, ![a, 1]⟩ ![0])
    (x : (⟨1, ![a]⟩ : Shape).Idx → α) (j : (⟨2, ![a, 1]⟩ : Shape).Idx) :
    broadcastInDim ⟨2, ![a, 1]⟩ ![0] h x j = x (ix1 (j 0)) :=
  broadcastInDim_apply _ h x j (ix1 (j 0)) (fun ax => match ax with
    | ⟨0, _⟩ => by
      show (j 0).val = if a = 1 then 0 else (j 0).val
      split
      · have := (j 0).isLt; simp at this; omega
      · rfl)

/-- An a by 1 column repeated across b columns. -/
theorem col_cols_apply {a b : ℕ} (h : (⟨2, ![a, 1]⟩ : Shape).BroadcastsInDim ⟨2, ![a, b]⟩ ![0, 1])
    (x : (⟨2, ![a, 1]⟩ : Shape).Idx → α) (j : (⟨2, ![a, b]⟩ : Shape).Idx) :
    broadcastInDim ⟨2, ![a, b]⟩ ![0, 1] h x j = x (ix2 (j 0) (0 : Fin 1)) :=
  broadcastInDim_apply _ h x j (ix2 (j 0) (0 : Fin 1)) (fun ax => match ax with
    | ⟨0, _⟩ => by
      show (j 0).val = if a = 1 then 0 else (j 0).val
      split
      · have := (j 0).isLt; simp at this; omega
      · rfl
    | ⟨1, _⟩ => by
      show 0 = if (1 : ℕ) = 1 then 0 else (j 1).val
      rw [if_pos rfl])

/-- A per-row quantity kept as a column and spread over the row. -/
theorem column_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (x : (⟨1, ![a]⟩ : Shape).Idx → α) (j : (⟨2, ![a, b]⟩ : Shape).Idx) :
    broadcastInDim ⟨2, ![a, b]⟩ ![0, 1] h2 (broadcastInDim ⟨2, ![a, 1]⟩ ![0] h1 x) j = x (ix1 (j 0)) :=
  (col_cols_apply h2 _ j).trans (vec_col_apply h1 x _)

end Idealize.ShloMosaic.HostBroadcast
-- ==== Proof.LibVectorAsMatrix.lean ====
/-
  A length-n vector reshaped to a 1 × n row or to an n × 1 column, read at an index.

  A reshape keeps row-major positions. Entry (0, q) of the row has position q, and entry (r, 0) of the column has
  position r, so each reads the vector at its free coordinate. This is what a bias `b.reshape(1, n)` or a per-row
  scale `s.reshape(n, 1)` holds, for any element type.
-/
import Idealize.ShloMosaic.Lib.Pipeline.Value
import Idealize.ShloMosaic.Lib.ValueIdx

noncomputable section

namespace Idealize.ShloMosaic.VectorAsMatrix

open Idealize.ShloMosaic Idealize.ShloMosaic.ValueIdx

variable {α : Type} {n : Nat}

/-- [n] reshaped to [1, n]: entry (0, q) is the vector's entry q. -/
theorem row_apply (v : (⟨1, ![n]⟩ : Shape).Idx → α) (h : (⟨1, ![n]⟩ : Shape).ShapeCasts ⟨2, ![1, n]⟩) (p : Fin 1)
    (q : Fin n) : shapeCast ⟨2, ![1, n]⟩ v h (ix2 p q) = v (ix1 q) :=
  shapeCast_apply v h (ix2 p q) (ix1 q) (by
    rw [Shape.rowMajor_val_one, Shape.rowMajor_val_two]
    have hp : p = 0 := Fin.ext (by have := p.isLt; omega)
    subst hp
    show q.val = 0 * n + q.val
    omega)

/-- [n] reshaped to [n, 1]: entry (r, 0) is the vector's entry r. -/
theorem col_apply (v : (⟨1, ![n]⟩ : Shape).Idx → α) (h : (⟨1, ![n]⟩ : Shape).ShapeCasts ⟨2, ![n, 1]⟩) (r : Fin n)
    (q : Fin 1) : shapeCast ⟨2, ![n, 1]⟩ v h (ix2 r q) = v (ix1 r) :=
  shapeCast_apply v h (ix2 r q) (ix1 r) (by
    rw [Shape.rowMajor_val_one, Shape.rowMajor_val_two]
    have hq : q = 0 := Fin.ext (by have := q.isLt; omega)
    subst hq
    show r.val = r.val * 1 + 0
    omega)

end Idealize.ShloMosaic.VectorAsMatrix

end
-- ==== Proof.KValue.lean ====
/-
  The kernel program's two results, node by node.

  The aggregated array at (n, c) is the edge sum at n of column c of the projected features: the scatter adds, at the
  target rows, the coefficient of the edge times the source row of the projection. Column 0 of the projection is
  x · W_est and column 1 + h is column h of x · W_gnn (the weights lie side by side); entry 0 of the bias row is b_est
  and entry 1 + h is b_gnn[h]. So the second launch's column 0 is the estimator's output and its column 1 the
  classifier's.
-/
import proofs.«123521_j51917564674443_1_alg».proof.Proof.KHost
import proofs.«123521_j51917564674443_1_alg».proof.Proof.Spec
import proofs.«123521_j51917564674443_1_alg».proof.Proof.LibHostBroadcast
import proofs.«123521_j51917564674443_1_alg».proof.Proof.LibVectorAsMatrix

noncomputable section

open scoped BigOperators

namespace Cert.KernelIdeal.Hand

open Cert.KernelIdeal Cert.KernelIdeal.Gen Idealize.ShloMosaic Idealize.ShloMosaic.ValueIdx Idealize.ShloMosaic.SegmentSum

/-- The array the scatter accumulates into. -/
def zeroArr : FVec Ideal S100000x65 .f32 :=
  broadcastInDim S100000x65 ![] bcast_S_S100000x65 (constant (F := Ideal) S_ .f32 0x00000000#32)

/-- It is zero everywhere. -/
theorem zeroArr_eq : zeroArr = fun _ => (0 : EReal) :=
  funext fun j => (HostBroadcast.scalar_apply _ bcast_S_S100000x65 _ j).trans Ideal.ofBits_zero_f32

/-- The update the scatter adds: the gathered source rows of `P`, each scaled by its edge's coefficient. -/
def scaledRows (a0 : IVec S2x3200000 32) (P : FVec Ideal S100000x65 .f32) : FVec Ideal S3300000x65 .f32 :=
  mulf (F := Ideal) (φ := .f32) (broadcastInDim S3300000x65 ![0, 1] bcast_S3300000x1_S3300000x65_0_1 (edgeNormCol (F := Ideal) a0))
    (Host.gather gather_S100000x65_S3300000x1_S3300000x65_1_0_n_n_0_1_165 P (asColumn (wrapNeg (srcIdx a0))))

/-- Entry (e, c) of the update: the coefficient of edge e times `P` at the edge's clamped source row, column c. -/
theorem scaledRows_apply (a0 : IVec S2x3200000 32) (P : FVec Ideal S100000x65 .f32) (e : Fin 3300000) (c : Fin 65) :
    scaledRows a0 P (ix2 e c)
      = edgeNormCol (F := Ideal) a0 (ix2 e (0 : Fin 1))
          * P (ix2 (clampRow 100000 Cert.Spec.nodes_pos (asColumn (wrapNeg (srcIdx a0))) e) c) :=
  (mulf_apply _ _ _).trans (congrArg₂ (· * ·)
    (HostBroadcast.col_cols_apply bcast_S3300000x1_S3300000x65_0_1 (edgeNormCol (F := Ideal) a0) (ix2 e c))
    (rowGather_apply Cert.Spec.nodes_pos (gather_S100000x65_S3300000x1_S3300000x65_1_0_n_n_0_1_165).wf P
      (asColumn (wrapNeg (srcIdx a0))) (ix2 e c)))

/-- The printed scatter is the row scatter at these sizes. -/
theorem scatter65_eq : scatter_S100000x65_S3300000x1_S3300000x65_1_0_0_1
    = rowScatterDims 100000 3300000 65 (scatter_S100000x65_S3300000x1_S3300000x65_1_0_0_1).wf := rfl

/-- The aggregated array is the exact scatter sum of the scaled gathered rows into zeros. -/
theorem aggArr_eq (a0 : IVec S2x3200000 32) (P : FVec Ideal S100000x65 .f32) :
    aggArr a0 P
      = Ideal.hostScatterAdd scatter_S100000x65_S3300000x1_S3300000x65_1_0_0_1 zeroArr (asColumn (tgtIdx a0))
          (scaledRows a0 P) := rfl

/-- The scatter of scaled gathered rows into zeros, for dimension numbers and an operand only KNOWN to be the row
    scatter's and the zero array: the edge sum, column by column. -/
theorem scatter_scaled_gather_of_eq {N E D w : Nat} (hN : 0 < N)
    (wfs : ScatterDims.WF ⟨2, ![N, D]⟩ ⟨2, ![E, 1]⟩ ⟨2, ![E, D]⟩ [1] [0] [0] 1)
    (d : ScatterDims ⟨2, ![N, D]⟩ ⟨2, ![E, 1]⟩ ⟨2, ![E, D]⟩) (hd : d = rowScatterDims N E D wfs)
    (z : (⟨2, ![N, D]⟩ : Shape).Idx → EReal) (hz : z = fun _ => 0)
    (col row : IVec ⟨2, ![E, 1]⟩ w) (coef : (⟨2, ![E, 1]⟩ : Shape).Idx → EReal)
    (P : (⟨2, ![N, D]⟩ : Shape).Idx → EReal) (U : (⟨2, ![E, D]⟩ : Shape).Idx → EReal)
    (hU : ∀ (e : Fin E) (c : Fin D), U (ix2 e c) = coef (ix2 e 0) * P (ix2 (clampRow N hN row e) c))
    (n : Fin N) (c : Fin D) :
    Ideal.hostScatterAdd d z col U (ix2 n c) = edgeSum N hN col row coef (fun r => P (ix2 r c)) n := by
  subst hd hz
  exact scatter_scaled_gather_apply hN wfs col row coef P U hU n c

/-- The aggregated array at (n, q): the edge sum at n of column q of `P`. -/
theorem agg_apply (a0 : IVec S2x3200000 32) (P : FVec Ideal S100000x65 .f32) (n : Fin 100000) (q : Fin 65) :
    aggArr a0 P (ix2 n q)
      = edgeSum 100000 Cert.Spec.nodes_pos (asColumn (tgtIdx a0)) (asColumn (wrapNeg (srcIdx a0)))
          (edgeNormCol (F := Ideal) a0) (fun r => P (ix2 r q)) n :=
  (congrFun (aggArr_eq a0 P) (ix2 n q)).trans
    (scatter_scaled_gather_of_eq Cert.Spec.nodes_pos (scatter_S100000x65_S3300000x1_S3300000x65_1_0_0_1).wf
      scatter_S100000x65_S3300000x1_S3300000x65_1_0_0_1 scatter65_eq zeroArr zeroArr_eq
      (asColumn (tgtIdx a0)) (asColumn (wrapNeg (srcIdx a0))) (edgeNormCol (F := Ideal) a0) P
      (scaledRows a0 P) (scaledRows_apply a0 P) n q)

/-! ## The columns of the projection and the entries of the bias row -/

theorem proj_col_est (x : FVec Ideal S100000x256 .f32) (w2 : FVec Ideal S256x1 .f32) (w4 : FVec Ideal S256x64 .f32)
    (r : Fin 100000) :
    projArr x (wcomb (F := Ideal) w2 w4) (ix2 r (0 : Fin 65)) = ∑ k : Fin 256, x (ix2 r k) * w2 (ix2 k (0 : Fin 1)) := by
  unfold projArr
  refine Finset.sum_congr rfl fun k _ => ?_
  refine congrArg (x (ix2 r k) * ·) ?_
  show wcomb (F := Ideal) w2 w4 (ix2 k (0 : Fin 65)) = w2 (ix2 k (0 : Fin 1))
  unfold wcomb
  refine (ConcatCols.concat_cols_apply (R := 256) (A := 1) (B := 64) (C := 65) rfl w2 w4
    concatenates_S256x1_S256x64_S256x65_d1 k (0 : Fin 65)).trans ?_
  unfold ConcatCols.catRow
  split
  · rfl
  · rename_i hlt; exact absurd (show ((0 : Fin 65)).val < 1 by decide) hlt

theorem proj_col_gnn (x : FVec Ideal S100000x256 .f32) (w2 : FVec Ideal S256x1 .f32) (w4 : FVec Ideal S256x64 .f32)
    (r : Fin 100000) (h : Fin 64) :
    projArr x (wcomb (F := Ideal) w2 w4) (ix2 r (⟨1 + h.val, by omega⟩ : Fin 65))
      = ∑ k : Fin 256, x (ix2 r k) * w4 (ix2 k h) := by
  unfold projArr
  refine Finset.sum_congr rfl fun k _ => ?_
  refine congrArg (x (ix2 r k) * ·) ?_
  show wcomb (F := Ideal) w2 w4 (ix2 k (⟨1 + h.val, by omega⟩ : Fin 65)) = w4 (ix2 k h)
  unfold wcomb
  refine (ConcatCols.concat_cols_apply (R := 256) (A := 1) (B := 64) (C := 65) rfl w2 w4
    concatenates_S256x1_S256x64_S256x65_d1 k (⟨1 + h.val, by omega⟩ : Fin 65)).trans ?_
  unfold ConcatCols.catRow
  split
  · rename_i hlt; exact absurd hlt (by show ¬ (1 + h.val < 1); omega)
  · exact congrArg (fun q => w4 (ix2 k q)) (Fin.ext (by show 1 + h.val - 1 = h.val; omega))

theorem bcomb_est (b3 : FVec Ideal S1 .f32) (b5 : FVec Ideal S64 .f32) :
    bcomb (F := Ideal) b3 b5 (ix2 (0 : Fin 1) (0 : Fin 65)) = b3 (ix1 (0 : Fin 1)) := by
  unfold bcomb
  refine (VectorAsMatrix.row_apply _ shapeCasts_S65_S1x65 (0 : Fin 1) (0 : Fin 65)).trans ?_
  exact concatenate_pair_apply_left (0 : Fin 1) b3 b5 concatenates_S1_S64_S65_d0 (ix1 (0 : Fin 65)) rfl (ix1 (0 : Fin 1))
    (fun b => by
      have hb : b.val < 1 := b.isLt
      have : b = ⟨0, by decide⟩ := Fin.ext (by show b.val = 0; omega)
      subst this; rfl)

theorem bcomb_gnn (b3 : FVec Ideal S1 .f32) (b5 : FVec Ideal S64 .f32) (h : Fin 64) :
    bcomb (F := Ideal) b3 b5 (ix2 (0 : Fin 1) (⟨1 + h.val, by omega⟩ : Fin 65)) = b5 (ix1 h) := by
  unfold bcomb
  refine (VectorAsMatrix.row_apply _ shapeCasts_S65_S1x65 (0 : Fin 1) (⟨1 + h.val, by omega⟩ : Fin 65)).trans ?_
  exact concatenate_pair_apply_right (0 : Fin 1) b3 b5 concatenates_S1_S64_S65_d0 (ix1 (⟨1 + h.val, by omega⟩ : Fin 65)) rfl rfl
    (ix1 h)
    (fun b hb => absurd (Fin.ext (by
      have hb1 : b.val < 1 := b.isLt
      show b.val = 0; omega)) hb)
    (by show h.val + 1 = 1 + h.val; omega)

/-! ## The second launch's result, column by column -/

theorem finArr_col0 (A : S100000x65.Idx → Elt Ideal .f32) (B : S1x65.Idx → Elt Ideal .f32) (Wc : S64x1.Idx → Elt Ideal .f32)
    (Bc : S1x1.Idx → Elt Ideal .f32) (n : Fin 100000) :
    finArr A B Wc Bc (ix2 n (0 : Fin 2)) = A (ix2 n (0 : Fin 65)) + B (ix2 (0 : Fin 1) (0 : Fin 65)) := by
  unfold finArr
  split
  · rfl
  · rename_i hne; exact absurd (show ((ix2 n (0 : Fin 2) : S100000x2.Idx) 1).val = 0 from rfl) hne

theorem finArr_col1 (A : S100000x65.Idx → Elt Ideal .f32) (B : S1x65.Idx → Elt Ideal .f32) (Wc : S64x1.Idx → Elt Ideal .f32)
    (Bc : S1x1.Idx → Elt Ideal .f32) (n : Fin 100000) :
    finArr A B Wc Bc (ix2 n (1 : Fin 2))
      = (∑ h : Fin 64, (A (ix2 n (⟨1 + h.val, by omega⟩ : Fin 65)) + B (ix2 (0 : Fin 1) (⟨1 + h.val, by omega⟩ : Fin 65)))
            * Wc (ix2 h (0 : Fin 1)))
          + Bc (ix2 (0 : Fin 1) (0 : Fin 1)) := by
  unfold finArr
  split
  · rename_i he; exact absurd he (by show ¬ ((1 : Fin 2)).val = 0; decide)
  · rfl

/-- The classifier's output at node n. -/
theorem k_y (a0 : IVec S2x3200000 32) (x : FVec Ideal S100000x256 .f32) (w2 : FVec Ideal S256x1 .f32) (b3 : FVec Ideal S1 .f32)
    (w4 : FVec Ideal S256x64 .f32) (b5 : FVec Ideal S64 .f32) (w6 : FVec Ideal S64x1 .f32) (b7 : FVec Ideal S1 .f32)
    (n : Fin 100000) :
    extractStridedSlice S100000x1 ![0, 1] (outArr a0 x w2 b3 w4 b5 w6 b7) slices_S100000x2_S100000x1_0_1 (ix2 n (0 : Fin 1))
      = Cert.Spec.yNode (asColumn (tgtIdx a0)) (asColumn (wrapNeg (srcIdx a0))) (edgeNormCol (F := Ideal) a0) x w4 b5 w6 b7 n := by
  refine (slice2_axis1_apply (n0 := 100000) (n1 := 2) (m := 1) 1 _ slices_S100000x2_S100000x1_0_1 n (0 : Fin 1) (1 : Fin 2)
    rfl).trans ?_
  unfold outArr
  refine (finArr_col1 _ _ _ _ n).trans ?_
  unfold Cert.Spec.yNode
  refine congrArg₂ (· + ·) (Finset.sum_congr rfl fun h _ => ?_) (VectorAsMatrix.row_apply b7 shapeCasts_S1_S1x1 (0 : Fin 1) (0 : Fin 1))
  refine congrArg (· * w6 (ix2 h (0 : Fin 1))) (congrArg₂ (· + ·) ?_ (bcomb_gnn b3 b5 h))
  refine (agg_apply a0 _ n _).trans ?_
  exact congrArg (fun p => edgeSum 100000 Cert.Spec.nodes_pos (asColumn (tgtIdx a0)) (asColumn (wrapNeg (srcIdx a0)))
    (edgeNormCol (F := Ideal) a0) p n) (funext fun r => proj_col_gnn x w2 w4 r h)

/-- The estimator's output at node n. -/
theorem k_s (a0 : IVec S2x3200000 32) (x : FVec Ideal S100000x256 .f32) (w2 : FVec Ideal S256x1 .f32) (b3 : FVec Ideal S1 .f32)
    (w4 : FVec Ideal S256x64 .f32) (b5 : FVec Ideal S64 .f32) (w6 : FVec Ideal S64x1 .f32) (b7 : FVec Ideal S1 .f32)
    (n : Fin 100000) :
    extractStridedSlice S100000x1 ![0, 0] (outArr a0 x w2 b3 w4 b5 w6 b7) slices_S100000x2_S100000x1_0_0 (ix2 n (0 : Fin 1))
      = Cert.Spec.sNode (asColumn (tgtIdx a0)) (asColumn (wrapNeg (srcIdx a0))) (edgeNormCol (F := Ideal) a0) x w2 b3 n := by
  refine (slice2_axis1_apply (n0 := 100000) (n1 := 2) (m := 1) 0 _ slices_S100000x2_S100000x1_0_0 n (0 : Fin 1) (0 : Fin 2)
    rfl).trans ?_
  unfold outArr
  refine (finArr_col0 _ _ _ _ n).trans ?_
  unfold Cert.Spec.sNode
  refine congrArg₂ (· + ·) ?_ (bcomb_est b3 b5)
  refine (agg_apply a0 _ n (0 : Fin 65)).trans ?_
  exact congrArg (fun p => edgeSum 100000 Cert.Spec.nodes_pos (asColumn (tgtIdx a0)) (asColumn (wrapNeg (srcIdx a0)))
    (edgeNormCol (F := Ideal) a0) p n) (funext fun r => proj_col_est x w2 w4 r)

end Cert.KernelIdeal.Hand

end
-- ==== Proof.RefValue.lean ====
/-
  The reference program's two results read at a node.

  The classifier output at node n is the contraction over the 64 hidden columns of (the accumulating row scatter of the
  scaled gathered rows of x · W_gnn, read at (n, h), plus the hidden bias at h) with the classifier weight, plus the
  classifier bias. The scatter into zeros of coef[e] · P[row e, h] along the target column is the edge sum of column h of
  P, and P[r, h] is the sum over the 256 features of x[r, k] · W_gnn[k, h]. The estimator output is the same with one
  column and no final contraction: the edge sum of x · W_est at n plus the estimator bias. Only sums and products, term by
  term, on the extended reals; nothing is asked to be finite.
-/
import proofs.«123521_j51917564674443_1_alg».proof.Proof.RefRead
import proofs.«123521_j51917564674443_1_alg».proof.Proof.Spec
import proofs.«123521_j51917564674443_1_alg».proof.Proof.LibHostBroadcast

noncomputable section

open scoped BigOperators

namespace Cert.ReferenceIdeal.RefValue

open Cert.ReferenceIdeal Cert.ReferenceIdeal.Gen Cert.ReferenceIdeal.ReadP Idealize.ShloMosaic Idealize.ShloMosaic.ValueIdx
open Idealize.ShloMosaic.SegmentSum Idealize.ShloMosaic.HostBroadcast

/-! ## The pieces both results share -/

/-- The zero array the wide scatter accumulates into. -/
theorem v59_zero : val_main_v59 (F := Ideal) = fun _ => (0 : EReal) := by
  funext i
  rw [val_main_v59_apply, val_main_cst_12_apply]
  exact Ideal.ofBits_zero_f32

/-- The zero array the one-column scatter accumulates into. -/
theorem v42_zero : val_main_v42 (F := Ideal) = fun _ => (0 : EReal) := by
  funext i
  rw [val_main_v42_apply, val_main_cst_9_apply]
  exact Ideal.ofBits_zero_f32

/-- The printed dimension numbers of the wide scatter are the row scatter's. -/
theorem scatter64_eq : scatter_S100000x64_S3300000x1_S3300000x64_1_0_0_1
    = rowScatterDims 100000 3300000 64 scatter_S100000x64_S3300000x1_S3300000x64_1_0_0_1_wf :=
  rfl

/-- The printed dimension numbers of the one-column scatter are the row scatter's. -/
theorem scatter1_eq : scatter_S100000x1_S3300000x1_S3300000x1_1_0_0_1
    = rowScatterDims 100000 3300000 1 scatter_S100000x1_S3300000x1_S3300000x1_1_0_0_1_wf :=
  rfl

/-! ## The classifier: 64 hidden columns -/

/-- The projected features: row r, column h of x · W_gnn is the sum over the 256 features. -/
theorem v48_read (x1 : FVec Ideal S100000x256 .f32) (x4 : FVec Ideal S256x64 .f32) (r : Fin 100000) (h : Fin 64) :
    val_main_v48 (F := Ideal) x1 x4 (ix2 r h) = ∑ k : Fin 256, x1 (ix2 r k) * x4 (ix2 k h) := by
  refine (val_main_v48_apply x1 x4 (ix2 r h)).trans ?_
  refine Finset.sum_congr rfl fun k _ => ?_
  have el : lidx_main_v48 (ix2 r h) k = ix2 r k := by
    funext a; match a with | ⟨0, _⟩ => rfl | ⟨1, _⟩ => rfl
  have er : ridx_main_v48 (ix2 r h) k = ix2 k h := by
    funext a; match a with | ⟨0, _⟩ => rfl | ⟨1, _⟩ => rfl
  rw [el, er]

/-- The edge coefficient column spread over the 64 columns reads the coefficient of the edge. -/
theorem v57_read (a0 : IVec S2x3200000 32) (e : Fin 3300000) (c : Fin 64) :
    val_main_v57 (F := Ideal) a0 (ix2 e c) = val_main_v49 (F := Ideal) a0 (ix2 e (0 : Fin 1)) := by
  unfold val_main_v57
  exact col_cols_apply bcast_S3300000x1_S3300000x64_0_1 (val_main_v49 (F := Ideal) a0) (ix2 e c)

/-- The gathered rows: edge e, column c reads the projected features at the edge's clamped source row. -/
theorem v56_read (a0 : IVec S2x3200000 32) (x1 : FVec Ideal S100000x256 .f32) (x4 : FVec Ideal S256x64 .f32)
    (e : Fin 3300000) (c : Fin 64) :
    val_main_v56 (F := Ideal) a0 x1 x4 (ix2 e c)
      = val_main_v48 (F := Ideal) x1 x4
          (ix2 (clampRow 100000 Cert.Spec.nodes_pos (val_main_v55 (F := Ideal) a0) e) c) := by
  unfold val_main_v56
  exact rowGather_apply Cert.Spec.nodes_pos gather_S100000x64_S3300000x1_S3300000x64_1_0_n_n_0_1_164_wf
    (val_main_v48 (F := Ideal) x1 x4) (val_main_v55 (F := Ideal) a0) (ix2 e c)

/-- The updates of the wide scatter: the edge's coefficient times the gathered element. -/
theorem v58_read (a0 : IVec S2x3200000 32) (x1 : FVec Ideal S100000x256 .f32) (x4 : FVec Ideal S256x64 .f32)
    (e : Fin 3300000) (c : Fin 64) :
    val_main_v58 (F := Ideal) a0 x1 x4 (ix2 e c)
      = val_main_v49 (F := Ideal) a0 (ix2 e (0 : Fin 1))
        * val_main_v48 (F := Ideal) x1 x4
            (ix2 (clampRow 100000 Cert.Spec.nodes_pos (val_main_v55 (F := Ideal) a0) e) c) := by
  unfold val_main_v58
  rw [mulf_apply, v57_read, v56_read]

/-- The wide scatter at (n, h): the edge sum of column h of x · W_gnn. -/
theorem v61_read (a0 : IVec S2x3200000 32) (x1 : FVec Ideal S100000x256 .f32) (x4 : FVec Ideal S256x64 .f32)
    (n : Fin 100000) (h : Fin 64) :
    val_main_v61 (F := Ideal) a0 x1 x4 (ix2 n h)
      = edgeSum 100000 Cert.Spec.nodes_pos (val_main_v60 (F := Ideal) a0) (val_main_v55 (F := Ideal) a0)
          (val_main_v49 (F := Ideal) a0) (fun r => ∑ k : Fin 256, x1 (ix2 r k) * x4 (ix2 k h)) n := by
  have h0 : val_main_v61 (F := Ideal) a0 x1 x4
      = Ideal.hostScatterAdd scatter_S100000x64_S3300000x1_S3300000x64_1_0_0_1 (val_main_v59 (F := Ideal))
          (val_main_v60 (F := Ideal) a0) (val_main_v58 (F := Ideal) a0 x1 x4) := rfl
  have h1 := congrArg₂
    (fun (d : ScatterDims S100000x64 S3300000x1 S3300000x64) (z : S100000x64.Idx → EReal) =>
      Ideal.hostScatterAdd d z (val_main_v60 (F := Ideal) a0) (val_main_v58 (F := Ideal) a0 x1 x4) (ix2 n h))
    scatter64_eq v59_zero
  refine (congrFun h0 (ix2 n h)).trans (h1.trans ?_)
  refine (scatter_scaled_gather_apply Cert.Spec.nodes_pos scatter_S100000x64_S3300000x1_S3300000x64_1_0_0_1_wf
    (val_main_v60 (F := Ideal) a0) (val_main_v55 (F := Ideal) a0) (val_main_v49 (F := Ideal) a0)
    (val_main_v48 (F := Ideal) x1 x4) (val_main_v58 (F := Ideal) a0 x1 x4)
    (fun e c => v58_read a0 x1 x4 e c) n h).trans ?_
  exact congrArg
    (fun p => edgeSum 100000 Cert.Spec.nodes_pos (val_main_v60 (F := Ideal) a0) (val_main_v55 (F := Ideal) a0)
      (val_main_v49 (F := Ideal) a0) p n)
    (funext fun r => v48_read x1 x4 r h)

/-- The hidden bias spread down the rows reads the bias at the column. -/
theorem v63_read (x5 : FVec Ideal S64 .f32) (n : Fin 100000) (h : Fin 64) :
    val_main_v63 (F := Ideal) x5 (ix2 n h) = x5 (ix1 h) := by
  unfold val_main_v63 val_main_v62
  exact bias_apply bcast_S64_S1x64_1 bcast_S1x64_S100000x64_0_1 x5 (ix2 n h)

/-- The hidden layer at (n, h): the edge sum plus the bias. -/
theorem v64_read (a0 : IVec S2x3200000 32) (x1 : FVec Ideal S100000x256 .f32) (x4 : FVec Ideal S256x64 .f32)
    (x5 : FVec Ideal S64 .f32) (n : Fin 100000) (h : Fin 64) :
    val_main_v64 (F := Ideal) a0 x1 x4 x5 (ix2 n h)
      = edgeSum 100000 Cert.Spec.nodes_pos (val_main_v60 (F := Ideal) a0) (val_main_v55 (F := Ideal) a0)
          (val_main_v49 (F := Ideal) a0) (fun r => ∑ k : Fin 256, x1 (ix2 r k) * x4 (ix2 k h)) n
        + x5 (ix1 h) := by
  unfold val_main_v64
  rw [addf_apply, v61_read, v63_read]

/-- The final contraction at node n: the sum over the hidden columns. -/
theorem v65_read (a0 : IVec S2x3200000 32) (x1 : FVec Ideal S100000x256 .f32) (x4 : FVec Ideal S256x64 .f32)
    (x5 : FVec Ideal S64 .f32) (x6 : FVec Ideal S64x1 .f32) (n : Fin 100000) :
    val_main_v65 (F := Ideal) a0 x1 x4 x5 x6 (ix2 n (0 : Fin 1))
      = ∑ h : Fin 64, val_main_v64 (F := Ideal) a0 x1 x4 x5 (ix2 n h) * x6 (ix2 h (0 : Fin 1)) := by
  refine (val_main_v65_apply a0 x1 x4 x5 x6 (ix2 n (0 : Fin 1))).trans ?_
  refine Finset.sum_congr rfl fun h _ => ?_
  have el : lidx_main_v65 (ix2 n (0 : Fin 1)) h = ix2 n h := by
    funext a; match a with | ⟨0, _⟩ => rfl | ⟨1, _⟩ => rfl
  have er : ridx_main_v65 (ix2 n (0 : Fin 1)) h = ix2 h (0 : Fin 1) := by
    funext a; match a with | ⟨0, _⟩ => rfl | ⟨1, _⟩ => rfl
  rw [el, er]

/-- The classifier bias spread over the one column reads the bias. -/
theorem v67_read (x7 : FVec Ideal S1 .f32) (n : Fin 100000) :
    val_main_v67 (F := Ideal) x7 (ix2 n (0 : Fin 1)) = x7 (ix1 (0 : Fin 1)) := by
  unfold val_main_v67 val_main_v66
  exact bias_apply bcast_S1_S1x1_1 bcast_S1x1_S100000x1_0_1 x7 (ix2 n (0 : Fin 1))

/-- The classifier output of the reference at node n. -/
theorem ref_y (a0 : IVec S2x3200000 32) (x1 : FVec Ideal S100000x256 .f32) (x4 : FVec Ideal S256x64 .f32)
    (x5 : FVec Ideal S64 .f32) (x6 : FVec Ideal S64x1 .f32) (x7 : FVec Ideal S1 .f32) (n : Fin 100000) :
    val_main_v68 (F := Ideal) a0 x1 x4 x5 x6 x7 (ix2 n (0 : Fin 1))
      = Cert.Spec.yNode (val_main_v60 (F := Ideal) a0) (val_main_v55 (F := Ideal) a0) (val_main_v49 (F := Ideal) a0)
          x1 x4 x5 x6 x7 n := by
  unfold val_main_v68
  rw [addf_apply, v65_read, v67_read]
  unfold Cert.Spec.yNode
  refine congrArg (· + x7 (ix1 (0 : Fin 1))) ?_
  refine Finset.sum_congr rfl fun h _ => ?_
  rw [v64_read]

/-! ## The estimator: one column -/

/-- The projected feature: row r of x · W_est is the sum over the 256 features. -/
theorem v32_read (x1 : FVec Ideal S100000x256 .f32) (x2 : FVec Ideal S256x1 .f32) (r : Fin 100000) (c : Fin 1) :
    val_main_v32 (F := Ideal) x1 x2 (ix2 r c) = ∑ k : Fin 256, x1 (ix2 r k) * x2 (ix2 k (0 : Fin 1)) := by
  obtain rfl : c = 0 := Subsingleton.elim _ _
  refine (val_main_v32_apply x1 x2 (ix2 r (0 : Fin 1))).trans ?_
  refine Finset.sum_congr rfl fun k _ => ?_
  have el : lidx_main_v32 (ix2 r (0 : Fin 1)) k = ix2 r k := by
    funext a; match a with | ⟨0, _⟩ => rfl | ⟨1, _⟩ => rfl
  have er : ridx_main_v32 (ix2 r (0 : Fin 1)) k = ix2 k (0 : Fin 1) := by
    funext a; match a with | ⟨0, _⟩ => rfl | ⟨1, _⟩ => rfl
  rw [el, er]

/-- The gathered column: edge e reads the projected feature at the edge's clamped source row. -/
theorem v40_read (a0 : IVec S2x3200000 32) (x1 : FVec Ideal S100000x256 .f32) (x2 : FVec Ideal S256x1 .f32)
    (e : Fin 3300000) (c : Fin 1) :
    val_main_v40 (F := Ideal) a0 x1 x2 (ix2 e c)
      = val_main_v32 (F := Ideal) x1 x2
          (ix2 (clampRow 100000 Cert.Spec.nodes_pos (val_main_v39 (F := Ideal) a0) e) c) := by
  unfold val_main_v40
  exact rowGather_apply Cert.Spec.nodes_pos gather_S100000x1_S3300000x1_S3300000x1_1_0_n_n_0_1_11_wf
    (val_main_v32 (F := Ideal) x1 x2) (val_main_v39 (F := Ideal) a0) (ix2 e c)

/-- The updates of the one-column scatter: the edge's coefficient times the gathered element. -/
theorem v41_read (a0 : IVec S2x3200000 32) (x1 : FVec Ideal S100000x256 .f32) (x2 : FVec Ideal S256x1 .f32)
    (e : Fin 3300000) (c : Fin 1) :
    val_main_v41 (F := Ideal) a0 x1 x2 (ix2 e c)
      = val_main_v33 (F := Ideal) a0 (ix2 e (0 : Fin 1))
        * val_main_v32 (F := Ideal) x1 x2
            (ix2 (clampRow 100000 Cert.Spec.nodes_pos (val_main_v39 (F := Ideal) a0) e) c) := by
  obtain rfl : c = 0 := Subsingleton.elim _ _
  unfold val_main_v41
  rw [mulf_apply, v40_read]

/-- The one-column scatter at node n: the edge sum of x · W_est. -/
theorem v44_read (a0 : IVec S2x3200000 32) (x1 : FVec Ideal S100000x256 .f32) (x2 : FVec Ideal S256x1 .f32)
    (n : Fin 100000) :
    val_main_v44 (F := Ideal) a0 x1 x2 (ix2 n (0 : Fin 1))
      = edgeSum 100000 Cert.Spec.nodes_pos (val_main_v43 (F := Ideal) a0) (val_main_v39 (F := Ideal) a0)
          (val_main_v33 (F := Ideal) a0) (fun r => ∑ k : Fin 256, x1 (ix2 r k) * x2 (ix2 k (0 : Fin 1))) n := by
  have h0 : val_main_v44 (F := Ideal) a0 x1 x2
      = Ideal.hostScatterAdd scatter_S100000x1_S3300000x1_S3300000x1_1_0_0_1 (val_main_v42 (F := Ideal))
          (val_main_v43 (F := Ideal) a0) (val_main_v41 (F := Ideal) a0 x1 x2) := rfl
  have h1 := congrArg₂
    (fun (d : ScatterDims S100000x1 S3300000x1 S3300000x1) (z : S100000x1.Idx → EReal) =>
      Ideal.hostScatterAdd d z (val_main_v43 (F := Ideal) a0) (val_main_v41 (F := Ideal) a0 x1 x2)
        (ix2 n (0 : Fin 1)))
    scatter1_eq v42_zero
  refine (congrFun h0 (ix2 n (0 : Fin 1))).trans (h1.trans ?_)
  refine (scatter_scaled_gather_apply Cert.Spec.nodes_pos scatter_S100000x1_S3300000x1_S3300000x1_1_0_0_1_wf
    (val_main_v43 (F := Ideal) a0) (val_main_v39 (F := Ideal) a0) (val_main_v33 (F := Ideal) a0)
    (val_main_v32 (F := Ideal) x1 x2) (val_main_v41 (F := Ideal) a0 x1 x2)
    (fun e c => v41_read a0 x1 x2 e c) n (0 : Fin 1)).trans ?_
  exact congrArg
    (fun p => edgeSum 100000 Cert.Spec.nodes_pos (val_main_v43 (F := Ideal) a0) (val_main_v39 (F := Ideal) a0)
      (val_main_v33 (F := Ideal) a0) p n)
    (funext fun r => v32_read x1 x2 r (0 : Fin 1))

/-- The estimator bias spread over the one column reads the bias. -/
theorem v46_read (x3 : FVec Ideal S1 .f32) (n : Fin 100000) :
    val_main_v46 (F := Ideal) x3 (ix2 n (0 : Fin 1)) = x3 (ix1 (0 : Fin 1)) := by
  unfold val_main_v46 val_main_v45
  exact bias_apply bcast_S1_S1x1_1 bcast_S1x1_S100000x1_0_1 x3 (ix2 n (0 : Fin 1))

/-- The estimator output of the reference at node n. -/
theorem ref_s (a0 : IVec S2x3200000 32) (x1 : FVec Ideal S100000x256 .f32) (x2 : FVec Ideal S256x1 .f32)
    (x3 : FVec Ideal S1 .f32) (n : Fin 100000) :
    val_main_v47 (F := Ideal) a0 x1 x2 x3 (ix2 n (0 : Fin 1))
      = Cert.Spec.sNode (val_main_v43 (F := Ideal) a0) (val_main_v39 (F := Ideal) a0) (val_main_v33 (F := Ideal) a0)
          x1 x2 x3 n := by
  unfold val_main_v47
  rw [addf_apply, v44_read, v46_read]
  unfold Cert.Spec.sNode
  rfl

end Cert.ReferenceIdeal.RefValue

end
-- ==== Proof.Bridge.lean ====
/-
  The two programs meet: both compute, node by node, the edge sums of the projected features with the same edge list and
  the same coefficients.

  The edge list and the coefficients are computed by the same operations in both programs (the same slices of the input,
  the same appended self loops, the same wrapped indices, the same degree count and inverse square roots), so the
  reference's index columns and coefficient column are the kernel program's, term for term. With that, the kernel
  program's results (its second launch's two columns) and the reference's results are the same two functions of the
  argument arrays: the classifier's output `yNode` and the estimator's output `sNode`.
-/
import proofs.«123521_j51917564674443_1_alg».proof.Proof.KValue
import proofs.«123521_j51917564674443_1_alg».proof.Proof.RefValue

noncomputable section

namespace Cert.Proof.Bridge

open Idealize.ShloMosaic Idealize.ShloMosaic.TcCoe Idealize.ShloMosaic.ValueIdx Idealize.SL.Sem
open Cert.KernelIdeal.Hand

/-! ## The shared edge list and coefficients -/

theorem col_y (a0 : IVec Cert.KernelIdeal.S2x3200000 32) :
    Cert.ReferenceIdeal.ReadP.val_main_v60 (F := Ideal) a0 = asColumn (tgtIdx a0) := rfl
theorem row_y (a0 : IVec Cert.KernelIdeal.S2x3200000 32) :
    Cert.ReferenceIdeal.ReadP.val_main_v55 (F := Ideal) a0 = asColumn (wrapNeg (srcIdx a0)) := rfl
set_option maxHeartbeats 2000000 in
theorem coef_y (a0 : IVec Cert.KernelIdeal.S2x3200000 32) :
    Cert.ReferenceIdeal.ReadP.val_main_v49 (F := Ideal) a0 = edgeNormCol (F := Ideal) a0 := rfl
theorem col_s (a0 : IVec Cert.KernelIdeal.S2x3200000 32) :
    Cert.ReferenceIdeal.ReadP.val_main_v43 (F := Ideal) a0 = asColumn (tgtIdx a0) := rfl
theorem row_s (a0 : IVec Cert.KernelIdeal.S2x3200000 32) :
    Cert.ReferenceIdeal.ReadP.val_main_v39 (F := Ideal) a0 = asColumn (wrapNeg (srcIdx a0)) := rfl
set_option maxHeartbeats 2000000 in
theorem coef_s (a0 : IVec Cert.KernelIdeal.S2x3200000 32) :
    Cert.ReferenceIdeal.ReadP.val_main_v33 (F := Ideal) a0 = edgeNormCol (F := Ideal) a0 := rfl

/-- The node functions depend on the edge list and the coefficients only through their values. -/
theorem yNode_congr {col col' row row' : IVec (⟨2, ![3300000, 1]⟩ : Shape) 32}
    {coef coef' : (⟨2, ![3300000, 1]⟩ : Shape).Idx → EReal} (h1 : col = col') (h2 : row = row') (h3 : coef = coef')
    (x : (⟨2, ![100000, 256]⟩ : Shape).Idx → EReal) (Wg : (⟨2, ![256, 64]⟩ : Shape).Idx → EReal)
    (bg : (⟨1, ![64]⟩ : Shape).Idx → EReal) (Wc : (⟨2, ![64, 1]⟩ : Shape).Idx → EReal)
    (bc : (⟨1, ![1]⟩ : Shape).Idx → EReal) (n : Fin 100000) :
    Cert.Spec.yNode col row coef x Wg bg Wc bc n = Cert.Spec.yNode col' row' coef' x Wg bg Wc bc n := by
  subst h1 h2 h3; rfl
theorem sNode_congr {col col' row row' : IVec (⟨2, ![3300000, 1]⟩ : Shape) 32}
    {coef coef' : (⟨2, ![3300000, 1]⟩ : Shape).Idx → EReal} (h1 : col = col') (h2 : row = row') (h3 : coef = coef')
    (x : (⟨2, ![100000, 256]⟩ : Shape).Idx → EReal) (We : (⟨2, ![256, 1]⟩ : Shape).Idx → EReal)
    (be : (⟨1, ![1]⟩ : Shape).Idx → EReal) (n : Fin 100000) :
    Cert.Spec.sNode col row coef x We be n = Cert.Spec.sNode col' row' coef' x We be n := by
  subst h1 h2 h3; rfl

/-! ## The two result arrays, as functions of the kernel program's argument arrays -/

section Results
open Cert.KernelIdeal

variable (m : (ℓ : Loc nD τ sig) → Buf (Elt Ideal) ℓ) (ρ : Dev nD → PrngReg)

/-- The classifier's output array. -/
def yArr (c : Dev nD) : S100000x1.Idx → EReal := fun i =>
  Cert.Spec.yNode (asColumn (tgtIdx (m ((c.tc : Thread nD τ).loc main_arg0))))
    (asColumn (wrapNeg (srcIdx (m ((c.tc : Thread nD τ).loc main_arg0)))))
    (edgeNormCol (F := Ideal) (m ((c.tc : Thread nD τ).loc main_arg0)))
    (m ((c.tc : Thread nD τ).loc main_arg1)) (m ((c.tc : Thread nD τ).loc main_arg4)) (m ((c.tc : Thread nD τ).loc main_arg5))
    (m ((c.tc : Thread nD τ).loc main_arg6)) (m ((c.tc : Thread nD τ).loc main_arg7))
    (⟨(i 0).val, idx2_lt0 i⟩ : Fin 100000)

/-- The estimator's output array. -/
def sArr (c : Dev nD) : S100000x1.Idx → EReal := fun i =>
  Cert.Spec.sNode (asColumn (tgtIdx (m ((c.tc : Thread nD τ).loc main_arg0))))
    (asColumn (wrapNeg (srcIdx (m ((c.tc : Thread nD τ).loc main_arg0)))))
    (edgeNormCol (F := Ideal) (m ((c.tc : Thread nD τ).loc main_arg0)))
    (m ((c.tc : Thread nD τ).loc main_arg1)) (m ((c.tc : Thread nD τ).loc main_arg2)) (m ((c.tc : Thread nD τ).loc main_arg3))
    (⟨(i 0).val, idx2_lt0 i⟩ : Fin 100000)

/-- An index of a one-column array is its row with column 0. -/
theorem col_index (i : S100000x1.Idx) : i = ix2 (⟨(i 0).val, idx2_lt0 i⟩ : Fin 100000) (0 : Fin 1) := by
  funext a
  match a with
  | ⟨0, _⟩ => rfl
  | ⟨1, _⟩ => exact Fin.ext (by have h : (i 1).val < 1 := idx2_lt1 i; show (i 1).val = 0; omega)

/-- The kernel program's classifier buffer at the end is the classifier's output array. -/
theorem kernel_y (c : Dev nD) : Gen.W7 m ρ c (Proc.devRef .tc main_v52) = yArr m c := by
  refine (W7_v52 m ρ c).trans (funext fun i => ?_)
  obtain ⟨n, rfl⟩ : ∃ n : Fin 100000, i = ix2 n (0 : Fin 1) := ⟨_, col_index i⟩
  exact k_y _ _ _ _ _ _ _ _ n

/-- The kernel program's estimator buffer at the end is the estimator's output array. -/
theorem kernel_s (c : Dev nD) : Gen.W7 m ρ c (Proc.devRef .tc main_v51) = sArr m c := by
  refine (W7_v51 m ρ c).trans (funext fun i => ?_)
  obtain ⟨n, rfl⟩ : ∃ n : Fin 100000, i = ix2 n (0 : Fin 1) := ⟨_, col_index i⟩
  exact k_s _ _ _ _ _ _ _ _ n

end Results

/-- The reference's classifier stage is the classifier's output array of the same argument arrays. -/
theorem reference_y (a0 : IVec Cert.KernelIdeal.S2x3200000 32) (x1 : FVec Ideal Cert.KernelIdeal.S100000x256 .f32)
    (x4 : FVec Ideal Cert.KernelIdeal.S256x64 .f32) (x5 : FVec Ideal Cert.KernelIdeal.S64 .f32)
    (x6 : FVec Ideal Cert.KernelIdeal.S64x1 .f32) (x7 : FVec Ideal Cert.KernelIdeal.S1 .f32) :
    Cert.ReferenceIdeal.ReadP.val_main_v68 (F := Ideal) a0 x1 x4 x5 x6 x7
      = fun i => Cert.Spec.yNode (asColumn (tgtIdx a0)) (asColumn (wrapNeg (srcIdx a0))) (edgeNormCol (F := Ideal) a0)
          x1 x4 x5 x6 x7 (⟨(i 0).val, idx2_lt0 i⟩ : Fin 100000) := by
  funext i
  obtain ⟨n, rfl⟩ : ∃ n : Fin 100000, i = ix2 n (0 : Fin 1) := ⟨_, col_index i⟩
  exact (Cert.ReferenceIdeal.RefValue.ref_y a0 x1 x4 x5 x6 x7 n).trans
    (yNode_congr (col_y a0) (row_y a0) (coef_y a0) x1 x4 x5 x6 x7 n)

/-- The reference's estimator stage is the estimator's output array of the same argument arrays. -/
theorem reference_s (a0 : IVec Cert.KernelIdeal.S2x3200000 32) (x1 : FVec Ideal Cert.KernelIdeal.S100000x256 .f32)
    (x2 : FVec Ideal Cert.KernelIdeal.S256x1 .f32) (x3 : FVec Ideal Cert.KernelIdeal.S1 .f32) :
    Cert.ReferenceIdeal.ReadP.val_main_v47 (F := Ideal) a0 x1 x2 x3
      = fun i => Cert.Spec.sNode (asColumn (tgtIdx a0)) (asColumn (wrapNeg (srcIdx a0))) (edgeNormCol (F := Ideal) a0)
          x1 x2 x3 (⟨(i 0).val, idx2_lt0 i⟩ : Fin 100000) := by
  funext i
  obtain ⟨n, rfl⟩ : ∃ n : Fin 100000, i = ix2 n (0 : Fin 1) := ⟨_, col_index i⟩
  exact (Cert.ReferenceIdeal.RefValue.ref_s a0 x1 x2 x3 n).trans
    (sNode_congr (col_s a0) (row_s a0) (coef_s a0) x1 x2 x3 n)

end Cert.Proof.Bridge

end
-- ==== Proof.lean ====
/-
  A two-layer graph convolution (an estimator head and a 64-wide layer followed by a linear classifier) computed by two
  kernel launches around a gather / scatter-add, against the plain reference: equal results on the extended reals.

  Both programs build the same edge list (the input's edges plus one self loop per node) and the same edge coefficients
  (the product of the inverse square roots of the two ends' degrees). The kernel program multiplies the node features
  with the two weights laid side by side in one launch, gathers the product's rows at the edges' sources, scales them
  and adds them at the targets, and in a second launch adds the two biases laid side by side, keeps column 0 (the
  estimator) and contracts columns 1..64 with the classifier weight; the reference does the two convolutions one after
  the other. Column by column the scatter-add reads as the same sum over the edges into a node, the side-by-side
  weights and biases read as their halves, and a change of float format is the identity, so the two results agree
  entry by entry with no algebra beyond the sums' own terms: no finiteness of the inputs is used.

  The three frames are the generated ones (the reference's is its run with the results dropped); the idealization
  rewrote nothing, so `preserves` is trivial.
-/
import proofs.«123521_j51917564674443_1_alg».proof.Defs
import proofs.«123521_j51917564674443_1_alg».proof.Proof.Gen.Kernel
import proofs.«123521_j51917564674443_1_alg».proof.Proof.Gen.Kernel.Frame
import proofs.«123521_j51917564674443_1_alg».proof.Proof.Gen.KernelIdeal
import proofs.«123521_j51917564674443_1_alg».proof.Proof.Gen.KernelIdeal.Frame
import proofs.«123521_j51917564674443_1_alg».proof.Proof.Gen.ReferenceIdeal
import proofs.«123521_j51917564674443_1_alg».proof.Proof.Gen.Pre_finite_inputs
import proofs.«123521_j51917564674443_1_alg».proof.Proof.KRun
import proofs.«123521_j51917564674443_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- Both programs end with the classifier's and the estimator's output arrays of the same argument arrays. -/
theorem algebraic : Cert.algebraic_KernelIdeal_ReferenceIdeal := by
  intro m ρ m' ρ' _ hagree
  refine ⟨fun c => Bridge.yArr m c, fun c => Bridge.sArr m c, ?_, ?_⟩
  · exact (θ_run Cert.KernelIdeal.defs _ _).mono
      (fun _ h c => ⟨(h c).1.trans (Bridge.kernel_y m ρ c), (h c).2.1.trans (Bridge.kernel_s m ρ c), (h c).2.2⟩)
      (Cert.KernelIdeal.Hand.run_results (F := Ideal) m ρ)
  · refine (θ_run Cert.ReferenceIdeal.defs _ _).mono
      (fun _ h c => ⟨(h c).1.trans ?_, (h c).2.1.trans ?_, (h c).2.2⟩)
      (Cert.ReferenceIdeal.ValueP.run (F := Ideal) m' ρ')
    · rw [Cert.ReferenceIdeal.ReadP.val_main_v68_eq, (hagree c).1, (hagree c).2.1, (hagree c).2.2.2.2.1,
        (hagree c).2.2.2.2.2.1, (hagree c).2.2.2.2.2.2.1, (hagree c).2.2.2.2.2.2.2]
      exact Bridge.reference_y _ _ _ _ _ _
    · rw [Cert.ReferenceIdeal.ReadP.val_main_v47_eq, (hagree c).1, (hagree c).2.1, (hagree c).2.2.1,
        (hagree c).2.2.2.1]
      exact Bridge.reference_s _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
